-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v12)) (v5 : (c : Dev Cert.KernelIdeal.nD) → Buf (Elt Ideal) ((c.tc : Thread Cert.KernelIdeal.nD Cert.KernelIdeal.τ).loc Cert.KernelIdeal.main_v13)) (v6 : (c : Dev Cert.KernelIdeal.nD) → Buf (Elt Ideal) ((c.tc : Thread Cert.KernelIdeal.nD Cert.KernelIdeal.τ).loc Cert.KernelIdeal.main_v14)) (v7 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_v13) = v5 c
          ∧ r.2.mem ((c.tc : Thread Cert.KernelIdeal.nD Cert.KernelIdeal.τ).loc Cert.KernelIdeal.main_v14) = v6 c
          ∧ r.2.mem ((c.tc : Thread Cert.KernelIdeal.nD Cert.KernelIdeal.τ).loc Cert.KernelIdeal.main_v15) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_v4) = v4 c
          ∧ r.2.mem ((c.tc : Thread Cert.ReferenceIdeal.nD Cert.ReferenceIdeal.τ).loc Cert.ReferenceIdeal.main_v5) = v5 c
          ∧ r.2.mem ((c.tc : Thread Cert.ReferenceIdeal.nD Cert.ReferenceIdeal.τ).loc Cert.ReferenceIdeal.main_v6) = v6 c
          ∧ r.2.mem ((c.tc : Thread Cert.ReferenceIdeal.nD Cert.ReferenceIdeal.τ).loc Cert.ReferenceIdeal.main_v7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S1024x1024 : Shape := ⟨2, ![1024, 1024]⟩
abbrev S2048x1024 : Shape := ⟨2, ![2048, 1024]⟩
abbrev S4096x1024 : Shape := ⟨2, ![4096, 1024]⟩
abbrev S1536x1024 : Shape := ⟨2, ![1536, 1024]⟩
abbrev S768x1024 : Shape := ⟨2, ![768, 1024]⟩
abbrev S3072x1024 : Shape := ⟨2, ![3072, 1024]⟩
abbrev S2560x1024 : Shape := ⟨2, ![2560, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1536x1024 : S_.BroadcastsInDim S1536x1024 (![] : Fin 0 → Fin S1536x1024.rank)
  reducesTo_S1536x1024_S_d0_1 : S1536x1024.ReducesTo [0, 1] S_
  bcast_S_S768x1024 : S_.BroadcastsInDim S768x1024 (![] : Fin 0 → Fin S768x1024.rank)
  reducesTo_S768x1024_S_d0_1 : S768x1024.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S2560x1024 : S_.BroadcastsInDim S2560x1024 (![] : Fin 0 → Fin S2560x1024.rank)
  reducesTo_S2560x1024_S_d0_1 : S2560x1024.ReducesTo [0, 1] S_

variable [Facts]

def fn_part4 {F : FTy → Type} [FloatOps F] (main_arg14 : FVec F S2560x1024 .f32) (main_arg15 : FVec F S1024x1024 .f32) (main_v63 : IVec S_ 1) (main_v67 : IVec S_ 1) : IVec S_ 1 :=
  let main_v68 : IVec S_ 1 := andi main_v63 main_v67
  let main_v69 : FVec F S2560x1024 .f32 := Host.absf main_arg14
  let main_cst_26 : FVec F S_ .f32 := constant S_ .f32 0x7F800000#32
  let main_v70 : FVec F S2560x1024 .f32 := broadcastInDim S2560x1024 ![] bcast_S_S2560x1024 main_cst_26
  let main_v71 : IVec S2560x1024 1 := cmpf .olt main_v69 main_v70
  let main_c_27 : IVec S_ 1 := constantI S_ 1 1#1
  let main_v72 : IVec S_ 1 := (fun x v => Host.reduce IntOp.andi x v reducesTo_S2560x1024_S_d0_1 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  main_v78

def fn_part3 {F : FTy → Type} [FloatOps F] (main_arg11 : FVec F S1024x1024 .f32) (main_arg12 : FVec F S3072x1024 .f32) (main_arg13 : FVec F S1024x1024 .f32) (main_arg14 : FVec F S2560x1024 .f32) (main_arg15 : FVec F S1024x1024 .f32) (main_v48 : IVec S_ 1) (main_v49 : FVec F S768x1024 .f32) (main_v50 : FVec F S768x1024 .f32) : IVec S_ 1 :=
  let main_v51 : IVec S768x1024 1 := cmpf .olt main_v49 main_v50
  let main_c_19 : IVec S_ 1 := constantI S_ 1 1#1
  let main_v52 : IVec S_ 1 := (fun x v => Host.reduce IntOp.andi x v reducesTo_S768x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S3072x1024 .f32 := Host.absf main_arg12
  let main_cst_22 : FVec F S_ .f32 := constant S_ .f32 0x7F800000#32
  let main_v60 : FVec F S3072x1024 .f32 := broadcastInDim S3072x1024 ![] bcast_S_S3072x1024 main_cst_22
  let main_v61 : IVec S3072x1024 1 := cmpf .olt main_v59 main_v60
  let main_c_23 : IVec S_ 1 := constantI S_ 1 1#1
  let main_v62 : IVec S_ 1 := (fun x v => Host.reduce IntOp.andi x v reducesTo_S3072x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_v63 main_v67

def fn_part2 {F : FTy → Type} [FloatOps F] (main_arg7 : FVec F S1024x1024 .f32) (main_arg8 : FVec F S1536x1024 .f32) (main_arg9 : FVec F S1024x1024 .f32) (main_arg10 : FVec F S768x1024 .f32) (main_arg11 : FVec F S1024x1024 .f32) (main_arg12 : FVec F S3072x1024 .f32) (main_arg13 : FVec F S1024x1024 .f32) (main_arg14 : FVec F S2560x1024 .f32) (main_arg15 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1536x1024 .f32 := Host.absf main_arg8
  let main_cst_14 : FVec F S_ .f32 := constant S_ .f32 0x7F800000#32
  let main_v40 : FVec F S1536x1024 .f32 := broadcastInDim S1536x1024 ![] bcast_S_S1536x1024 main_cst_14
  let main_v41 : IVec S1536x1024 1 := cmpf .olt main_v39 main_v40
  let main_c_15 : IVec S_ 1 := constantI S_ 1 1#1
  let main_v42 : IVec S_ 1 := (fun x v => Host.reduce IntOp.andi x v reducesTo_S1536x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S768x1024 .f32 := Host.absf main_arg10
  let main_cst_18 : FVec F S_ .f32 := constant S_ .f32 0x7F800000#32
  let main_v50 : FVec F S768x1024 .f32 := broadcastInDim S768x1024 ![] bcast_S_S768x1024 main_cst_18
  fn_part3 (F := F) main_arg11 main_arg12 main_arg13 main_arg14 main_arg15 main_v48 main_v49 main_v50

def fn_part1 {F : FTy → Type} [FloatOps F] (main_arg4 : FVec F S2048x1024 .f32) (main_arg5 : FVec F S1024x1024 .f32) (main_arg6 : FVec F S4096x1024 .f32) (main_arg7 : FVec F S1024x1024 .f32) (main_arg8 : FVec F S1536x1024 .f32) (main_arg9 : FVec F S1024x1024 .f32) (main_arg10 : FVec F S768x1024 .f32) (main_arg11 : FVec F S1024x1024 .f32) (main_arg12 : FVec F S3072x1024 .f32) (main_arg13 : FVec F S1024x1024 .f32) (main_arg14 : FVec F S2560x1024 .f32) (main_arg15 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S512x1024 .f32) (main_arg1 : FVec F S1024x1024 .f32) (main_arg2 : FVec F S1024x1024 .f32) (main_arg3 : FVec F S1024x1024 .f32) (main_arg4 : FVec F S2048x1024 .f32) (main_arg5 : FVec F S1024x1024 .f32) (main_arg6 : FVec F S4096x1024 .f32) (main_arg7 : FVec F S1024x1024 .f32) (main_arg8 : FVec F S1536x1024 .f32) (main_arg9 : FVec F S1024x1024 .f32) (main_arg10 : FVec F S768x1024 .f32) (main_arg11 : FVec F S1024x1024 .f32) (main_arg12 : FVec F S3072x1024 .f32) (main_arg13 : FVec F S1024x1024 .f32) (main_arg14 : FVec F S2560x1024 .f32) (main_arg15 : FVec F S1024x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S512x1024 : Shape := ⟨2, ![512, 1024]⟩
abbrev S1024x1024 : Shape := ⟨2, ![1024, 1024]⟩
abbrev S2048x1024 : Shape := ⟨2, ![2048, 1024]⟩
abbrev S4096x1024 : Shape := ⟨2, ![4096, 1024]⟩
abbrev S1536x1024 : Shape := ⟨2, ![1536, 1024]⟩
abbrev S768x1024 : Shape := ⟨2, ![768, 1024]⟩
abbrev S3072x1024 : Shape := ⟨2, ![3072, 1024]⟩
abbrev S2560x1024 : Shape := ⟨2, ![2560, 1024]⟩
abbrev S256x1024 : Shape := ⟨2, ![256, 1024]⟩

abbrev nBuf : Space → Nat
  | .hbm => 32
  | .vmem => 40
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1536x1024, .f32⟩
  | .hbm, ⟨9, _⟩ => ⟨S1024x1024, .f32⟩
  | .hbm, ⟨10, _⟩ => ⟨S768x1024, .f32⟩
  | .hbm, ⟨11, _⟩ => ⟨S1024x1024, .f32⟩
  | .hbm, ⟨12, _⟩ => ⟨S3072x1024, .f32⟩
  | .hbm, ⟨13, _⟩ => ⟨S1024x1024, .f32⟩
  | .hbm, ⟨14, _⟩ => ⟨S2560x1024, .f32⟩
  | .hbm, ⟨15, _⟩ => ⟨S1024x1024, .f32⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S512x1024, .f32⟩
  | .hbm, ⟨25, _⟩ => ⟨S1024x1024, .f32⟩
  | .hbm, ⟨26, _⟩ => ⟨S2048x1024, .f32⟩
  | .hbm, ⟨27, _⟩ => ⟨S4096x1024, .f32⟩
  | .hbm, ⟨28, _⟩ => ⟨S1536x1024, .f32⟩
  | .hbm, ⟨29, _⟩ => ⟨S768x1024, .f32⟩
  | .hbm, ⟨30, _⟩ => ⟨S3072x1024, .f32⟩
  | .hbm, ⟨31, _⟩ => ⟨S2560x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S1024x1024, .bf16⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S1024x1024, .bf16⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S1024x1024, .bf16⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S1024x1024, .bf16⟩
  | .local _ .vmem, ⟨38, _⟩ => ⟨S256x1024, .f32⟩
  | .local _ .vmem, ⟨39, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![6], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![3], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S256x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![12], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S256x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S256x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1024x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S256x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S512x1024.size a
  hwx0_0 : ∀ i : grid0.Coords, EltTy.bits .f32 = 32 ∨ (Rect.block (s := S512x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S512x1024.size a
  hwx0_2 : ∀ i : grid0.Coords, EltTy.bits .f32 = 32 ∨ (Rect.block (s := S512x1024) S256x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S1024x1024.size a
  hwx1_0 : ∀ i : grid1.Coords, EltTy.bits .f32 = 32 ∨ (Rect.block (s := S1024x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S1024x1024.size a
  hwx1_2 : ∀ i : grid1.Coords, EltTy.bits .f32 = 32 ∨ (Rect.block (s := S1024x1024) S256x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S2048x1024.size a
  hwx2_0 : ∀ i : grid2.Coords, EltTy.bits .f32 = 32 ∨ (Rect.block (s := S2048x1024) S256x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S2048x1024.size a
  hwx2_2 : ∀ i : grid2.Coords, EltTy.bits .f32 = 32 ∨ (Rect.block (s := S2048x1024) S256x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x1024.size a ≤ S4096x1024.size a
  hwx3_0 : ∀ i : grid3.Coords, EltTy.bits .f32 = 32 ∨ (Rect.block (s := S4096x1024) S256x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x1024.size a
  hwx3_1 : ∀ i : grid3.Coords, EltTy.bits .bf16 = 32 ∨ (Rect.block (s := S1024x1024) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x1024.size a ≤ S4096x1024.size a
  hwx3_2 : ∀ i : grid3.Coords, EltTy.bits .f32 = 32 ∨ (Rect.block (s := S4096x1024) S256x1024.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x1024.size a ≤ S1536x1024.size a
  hwx4_0 : ∀ i : grid4.Coords, EltTy.bits .f32 = 32 ∨ (Rect.block (s := S1536x1024) S256x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x1024.size a ≤ S1536x1024.size a
  hwx4_2 : ∀ i : grid4.Coords, EltTy.bits .f32 = 32 ∨ (Rect.block (s := S1536x1024) S256x1024.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x1024.size a ≤ S768x1024.size a
  hwx5_0 : ∀ i : grid5.Coords, EltTy.bits .f32 = 32 ∨ (Rect.block (s := S768x1024) S256x1024.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S1024x1024.size a
  hwx5_1 : ∀ i : grid5.Coords, EltTy.bits .bf16 = 32 ∨ (Rect.block (s := S1024x1024) S1024x1024.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x1024.size a ≤ S768x1024.size a
  hwx5_2 : ∀ i : grid5.Coords, EltTy.bits .f32 = 32 ∨ (Rect.block (s := S768x1024) S256x1024.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x1024.size a ≤ S3072x1024.size a
  hwx6_0 : ∀ i : grid6.Coords, EltTy.bits .f32 = 32 ∨ (Rect.block (s := S3072x1024) S256x1024.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1024x1024.size a ≤ S1024x1024.size a
  hwx6_1 : ∀ i : grid6.Coords, EltTy.bits .bf16 = 32 ∨ (Rect.block (s := S1024x1024) S1024x1024.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S256x1024.size a ≤ S3072x1024.size a
  hwx6_2 : ∀ i : grid6.Coords, EltTy.bits .f32 = 32 ∨ (Rect.block (s := S3072x1024) S256x1024.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x1024.size a ≤ S2560x1024.size a
  hwx7_0 : ∀ i : grid7.Coords, EltTy.bits .f32 = 32 ∨ (Rect.block (s := S2560x1024) S256x1024.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1024x1024.size a ≤ S1024x1024.size a
  hwx7_1 : ∀ i : grid7.Coords, EltTy.bits .bf16 = 32 ∨ (Rect.block (s := S1024x1024) S1024x1024.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S256x1024.size a ≤ S2560x1024.size a
  hwx7_2 : ∀ i : grid7.Coords, EltTy.bits .f32 = 32 ∨ (Rect.block (s := S2560x1024) S256x1024.size (cc7_transform_2 i) (hinb7_2 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg4) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S256x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg6) S256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S256x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg8) S256x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v12) S256x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg10) S256x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S1024x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v13) S256x1024.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_arg12) S256x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v6) S1024x1024.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v14) S256x1024.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_arg14) S256x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v7) S1024x1024.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v15) S256x1024.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S512x1024 : Shape := ⟨2, ![512, 1024]⟩
abbrev S1024x1024 : Shape := ⟨2, ![1024, 1024]⟩
abbrev S2048x1024 : Shape := ⟨2, ![2048, 1024]⟩
abbrev S4096x1024 : Shape := ⟨2, ![4096, 1024]⟩
abbrev S1536x1024 : Shape := ⟨2, ![1536, 1024]⟩
abbrev S768x1024 : Shape := ⟨2, ![768, 1024]⟩
abbrev S3072x1024 : Shape := ⟨2, ![3072, 1024]⟩
abbrev S2560x1024 : Shape := ⟨2, ![2560, 1024]⟩

abbrev nBuf : Space → Nat
  | .hbm => 24
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1536x1024, .f32⟩
  | .hbm, ⟨9, _⟩ => ⟨S1024x1024, .f32⟩
  | .hbm, ⟨10, _⟩ => ⟨S768x1024, .f32⟩
  | .hbm, ⟨11, _⟩ => ⟨S1024x1024, .f32⟩
  | .hbm, ⟨12, _⟩ => ⟨S3072x1024, .f32⟩
  | .hbm, ⟨13, _⟩ => ⟨S1024x1024, .f32⟩
  | .hbm, ⟨14, _⟩ => ⟨S2560x1024, .f32⟩
  | .hbm, ⟨15, _⟩ => ⟨S1024x1024, .f32⟩
  | .hbm, ⟨16, _⟩ => ⟨S512x1024, .f32⟩
  | .hbm, ⟨17, _⟩ => ⟨S1024x1024, .f32⟩
  | .hbm, ⟨18, _⟩ => ⟨S2048x1024, .f32⟩
  | .hbm, ⟨19, _⟩ => ⟨S4096x1024, .f32⟩
  | .hbm, ⟨20, _⟩ => ⟨S1536x1024, .f32⟩
  | .hbm, ⟨21, _⟩ => ⟨S768x1024, .f32⟩
  | .hbm, ⟨22, _⟩ => ⟨S3072x1024, .f32⟩
  | .hbm, ⟨23, _⟩ => ⟨S2560x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩

abbrev nD : Nat := 1
abbrev τ : Topo := Topo.v7x

variable {F : FTy → Type} [FloatOps F]

class Facts₀ : Prop where
  dot_S512x1024_S1024x1024_S512x1024_1_0_0_1_n_n_wf : DotDims.WF S512x1024 S1024x1024 S512x1024 [1] [0] [0] [1] [] []
  dot_S1024x1024_S1024x1024_S1024x1024_1_0_0_1_n_n_wf : DotDims.WF S1024x1024 S1024x1024 S1024x1024 [1] [0] [0] [1] [] []
  dot_S2048x1024_S1024x1024_S2048x1024_1_0_0_1_n_n_wf : DotDims.WF S2048x1024 S1024x1024 S2048x1024 [1] [0] [0] [1] [] []
  dot_S4096x1024_S1024x1024_S4096x1024_1_0_0_1_n_n_wf : DotDims.WF S4096x1024 S1024x1024 S4096x1024 [1] [0] [0] [1] [] []
  dot_S1536x1024_S1024x1024_S1536x1024_1_0_0_1_n_n_wf : DotDims.WF S1536x1024 S1024x1024 S1536x1024 [1] [0] [0] [1] [] []
  dot_S768x1024_S1024x1024_S768x1024_1_0_0_1_n_n_wf : DotDims.WF S768x1024 S1024x1024 S768x1024 [1] [0] [0] [1] [] []
  dot_S3072x1024_S1024x1024_S3072x1024_1_0_0_1_n_n_wf : DotDims.WF S3072x1024 S1024x1024 S3072x1024 [1] [0] [0] [1] [] []
  dot_S2560x1024_S1024x1024_S2560x1024_1_0_0_1_n_n_wf : DotDims.WF S2560x1024 S1024x1024 S2560x1024 [1] [0] [0] [1] [] []

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S1536x1024_S1024x1024_S1536x1024_1_0_0_1_n_n : DotDims S1536x1024 S1024x1024 S1536x1024 where
  lhsContracting := [1]
  rhsContracting := [0]
  lhsNonContracting := [0]
  rhsNonContracting := [1]
  lhsBatch := []
  rhsBatch := []
  wf := dot_S1536x1024_S1024x1024_S1536x1024_1_0_0_1_n_n_wf
def dot_S768x1024_S1024x1024_S768x1024_1_0_0_1_n_n : DotDims S768x1024 S1024x1024 S768x1024 where
  lhsContracting := [1]
  rhsContracting := [0]
  lhsNonContracting := [0]
  rhsNonContracting := [1]
  lhsBatch := []
  rhsBatch := []
  wf := dot_S768x1024_S1024x1024_S768x1024_1_0_0_1_n_n_wf
def dot_S3072x1024_S1024x1024_S3072x1024_1_0_0_1_n_n : DotDims S3072x1024 S1024x1024 S3072x1024 where
  lhsContracting := [1]
  rhsContracting := [0]
  lhsNonContracting := [0]
  rhsNonContracting := [1]
  lhsBatch := []
  rhsBatch := []
  wf := dot_S3072x1024_S1024x1024_S3072x1024_1_0_0_1_n_n_wf
def dot_S2560x1024_S1024x1024_S2560x1024_1_0_0_1_n_n : DotDims S2560x1024 S1024x1024 S2560x1024 where
  lhsContracting := [1]
  rhsContracting := [0]
  lhsNonContracting := [0]
  rhsNonContracting := [1]
  lhsBatch := []
  rhsBatch := []
  wf := dot_S2560x1024_S1024x1024_S2560x1024_1_0_0_1_n_n_wf

class Facts : Prop extends Facts₀ where

variable [Facts]
-- ==== Proof.LastBoundary.lean ====
/-
  The run of the eight launches, with the final memory named.

  The program is one stretch of host operations (the eight roundings of the right operands) followed by eight kernel
  launches. Run from any memory, every weakly fair execution terminates without a fault, and at the end every buffer the
  host can see holds what the fold of the nine segments leaves there: the launch memory pushed through the host stretch and
  then through each launch's write-backs in turn (`W9`). Each segment is entered from the contents the previous one
  leaves, so the nine segments chain from the launch memory to that last boundary; the final state is then read against
  it buffer by buffer.
-/
import proofs.«135188_j32349693674007_2_alg».proof.Proof.Gen.KernelIdeal.Frame

set_option maxRecDepth 16384

noncomputable section

namespace Cert.KernelIdeal.LastBoundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every buffer visible to the host at
    the contents the last segment boundary names. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- A buffer of the program that is not scoped to a launch ends at the last boundary's contents. -/
theorem at_ref {r : PUnit × MemSt nD τ sig (Elt F)}
    (h : ∀ c : Dev nD, ∀ b ∈ Pipeline.ucRefs τ sig, r.2.mem (((c : Thread nD τ)).1, b) = W9 m ρ c b)
    (c : Dev nD) (b : Ref sig .tc) (hb : ¬ (Proc.devRef .tc b : DevRef τ sig).isScoped) :
    r.2.mem ((c.tc : Thread nD τ).loc b) = W9 m ρ c (Proc.devRef .tc b) :=
  h c _ (mem_uc b hb)

end Cert.KernelIdeal.LastBoundary

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.RowsByColumns.lean ====
/-
  The product of a tall matrix by a square one, entry by entry.

  Every expert's result is the same function of its two arguments: for an M x 1024 array `a` and a 1024 x 1024 array `b`,
  entry (r, s) of the result is the sum over k of a(r, k) * b(k, s), taken in the extended reals (`product`). Rounding
  either operand to a narrower float format changes nothing there (`product_round_right`), because at the exact instance a
  change of format is the identity. A 256-row slab of the left operand multiplied into a zero accumulator by the matrix
  unit is, entry by entry, that same sum over the slab's rows (`slab_entry`).
-/
import Idealize.ShloMosaic.PureOps.Ideal.Laws
import Idealize.ShloMosaic.Lib.ValueIdx
import Idealize.ShloMosaic.Lib.Pipeline.Value
import proofs.«135188_j32349693674007_2_alg».proof.Proof.LibMatmul

noncomputable section

namespace Cert.RowsByColumns

open Idealize.ShloMosaic Idealize.ShloMosaic.ValueIdx

/-- Entry (r, s) of `a` times `b`: the sum over k of a(r, k) * b(k, s). -/
def product {M : ℕ} {φ₁ φ₂ : FTy} (a : FVec Ideal ⟨2, ![M, 1024]⟩ φ₁) (b : FVec Ideal ⟨2, ![1024, 1024]⟩ φ₂) :
    FVec Ideal ⟨2, ![M, 1024]⟩ .f32 :=
  fun i => ∑ k : Fin 1024, a (ix2 (⟨(i 0).val, (i 0).isLt⟩ : Fin M) k) * b (ix2 k (⟨(i 1).val, (i 1).isLt⟩ : Fin 1024))

/-- The product at an entry named by its coordinates. -/
theorem product_entry {M : ℕ} {φ₁ φ₂ : FTy} (a : FVec Ideal ⟨2, ![M, 1024]⟩ φ₁) (b : FVec Ideal ⟨2, ![1024, 1024]⟩ φ₂)
    (i : (⟨2, ![M, 1024]⟩ : Shape).Idx) (r : Fin M) (s : Fin 1024) (hr : (i 0).val = r.val) (hs : (i 1).val = s.val) :
    product a b i = ∑ k : Fin 1024, a (ix2 r k) * b (ix2 k s) := by
  unfold product
  have e0 : (⟨(i 0).val, (i 0).isLt⟩ : Fin M) = r := Fin.ext hr
  have e1 : (⟨(i 1).val, (i 1).isLt⟩ : Fin 1024) = s := Fin.ext hs
  rw [e0, e1]

/-- Rounding the right operand to a narrower format does not change the product: over the extended reals a change of
    float format is the identity. -/
theorem product_round_right {M : ℕ} {φ₁ φ₂ ψ : FTy} (a : FVec Ideal ⟨2, ![M, 1024]⟩ φ₁) (b : FVec Ideal ⟨2, ![1024, 1024]⟩ φ₂)
    (h : ψ.bits < φ₂.bits) : product a (truncf ψ b h) = product a b := rfl

/-- A 256-row slab `x` of the left operand, rounded, times the whole (already rounded) right operand `y`, accumulated
    from zero: entry (r, s) is the sum over k of x(r, k) * y(k, s). -/
theorem slab_entry (wf : DotDims.WF ⟨2, ![256, 1024]⟩ ⟨2, ![1024, 1024]⟩ ⟨2, ![256, 1024]⟩ [1] [0] [0] [1] [] [])
    (x : FVec Ideal ⟨2, ![256, 1024]⟩ .f32) (y : FVec Ideal ⟨2, ![1024, 1024]⟩ .bf16)
    (hb : FTy.bits .bf16 < FTy.bits .f32) (hc : (⟨2, ![1024, 1024]⟩ : Shape).ShapeCasts ⟨2, ![1024, 1024]⟩)
    (r : Fin 256) (s : Fin 1024) :
    matmul (Cert.MatmulAt.plainDims wf) none (truncf .bf16 x hb) (shapeCast ⟨2, ![1024, 1024]⟩ y hc)
        (constant (F := Ideal) ⟨2, ![256, 1024]⟩ .f32 0x00000000#32) (ix2 r s)
      = ∑ k : Fin 1024, x (ix2 r k) * y (ix2 k s) := by
  rw [Cert.MatmulAt.matmul_zero_plain_apply, shapeCast_self]
  rfl

end Cert.RowsByColumns

end
-- ==== Proof.Expert0.lean ====
/-
  Expert 0: what its launch leaves in its result array.

  The launch walks 2 grid points. Point t fetches rows 256 t … 256 t + 255 of the left operand (a 512 x 1024 array) and the
  whole right operand, multiplies the slab by the right operand into a zero accumulator, and writes the 256 x 1024 result
  back as rows 256 t … 256 t + 255 of the result array. So what point t writes back is the block at t of ONE function of the
  two arrays as the launch finds them, their product (`written_back`); the 2 blocks tile the result array (row r lies in
  the block of point r / 256), so after the launch the array is that product (`result_array`).
-/
import proofs.«135188_j32349693674007_2_alg».proof.Proof.Gen.KernelIdeal.Frame
import proofs.«135188_j32349693674007_2_alg».proof.Proof.RowsByColumns
import Idealize.ShloMosaic.Lib.Pipeline.Value

set_option maxRecDepth 16384

noncomputable section

namespace Cert.KernelIdeal.Expert0

open Cert.KernelIdeal Cert.KernelIdeal.Gen Cert.RowsByColumns
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The left operand as the launch finds it. -/
abbrev left (c : Dev nD) : FVec Ideal S512x1024 .f32 := V c main_arg0
/-- The right operand as the launch finds it (already rounded by the host). -/
abbrev right (c : Dev nD) : FVec Ideal S1024x1024 .bf16 := V c main_v0

theorem zero_offsets : (![0, 0] : Fin 2 → Nat) = fun _ => 0 := funext fun a => by fin_cases a <;> rfl

/-- The block each window holds at point t: the left operand's and the result's block t along the rows, the right
    operand's only block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the body stores, at entry (r, s): the slab's row r against the right operand's column s. -/
theorem payload_entry (x : FVec Ideal S256x1024 .f32) (y : FVec Ideal S1024x1024 .bf16) (r : Fin 256) (s : Fin 1024) :
    k0_pay1 (F := Ideal) x y (ix2 r s) = ∑ k : Fin 1024, x (ix2 r k) * y (ix2 k s) :=
  slab_entry Facts₀.dot_S256x1024_S1024x1024_S256x1024_1_0_0_1_n_n_wf x y _ _ r s

/-- Entry (r, k) of the left operand's block at point t is entry (256 t + r, k) of the left operand. -/
theorem left_block (c : Dev nD) (t : Fin cfg0.N) (r : Fin 256) (k : Fin 1024) (i : S512x1024.Idx)
    (h0 : (i 0).val = 256 * t.val + r.val) (h1 : (i 1).val = k.val) :
    (iblk0 V c 0 t : FVec Ideal S256x1024 .f32) (ix2 r k) = left V c i := by
  obtain ⟨e0, e1, -⟩ := block_indices t
  unfold iblk0
  rw [View.read_apply]
  show V c main_arg0 _ = V c main_arg0 _
  refine congrArg _ (funext fun a => Fin.ext ?_)
  match a with
  | ⟨0, _⟩ => show win0_0.index t (0 : Fin 2) * 256 + 1 * r.val = (i 0).val; rw [e0, h0]; omega
  | ⟨1, _⟩ => show win0_0.index t (1 : Fin 2) * 1024 + 1 * k.val = (i 1).val; rw [e1, h1]; omega

/-- The right operand's block at any point is the whole right operand. -/
theorem right_block (c : Dev nD) (t : Fin cfg0.N) (k s : Fin 1024) :
    (iblk0 V c 1 t : FVec Ideal S1024x1024 .bf16) (ix2 k s) = right V c (ix2 k s) := by
  obtain ⟨-, -, e2, e3, -⟩ := block_indices t
  unfold iblk0
  rw [View.read_apply]
  show V c main_v0 _ = V c main_v0 _
  refine congrArg _ (funext fun a => Fin.ext ?_)
  match a with
  | ⟨0, _⟩ => show win0_1.index t (0 : Fin 2) * 1024 + 1 * k.val = k.val; rw [e2]; omega
  | ⟨1, _⟩ => show win0_1.index t (1 : Fin 2) * 1024 + 1 * s.val = s.val; rw [e3]; omega

/-- What point t writes back is block t of the product of the two operands as the launch finds them. -/
theorem written_back (c : Dev nD) (t : Fin cfg0.N) :
    (dat0 V c).flushed 2 t = ((cfg0.win 2).blk t).view.read (Elt Ideal) (product (M := 512) (left V c) (right V c)) := by
  show (cfg0.win 2).cut (grid0.coords t) ((dat0 V c).after 2 t) = _
  rw [after0_2]
  unfold out0_2
  rw [View.canon_unit_zero zero_offsets]
  simp only [View.ld_unit_zero (S := S256x1024) zero_offsets, View.ld_unit_zero (S := S1024x1024) zero_offsets]
  obtain ⟨-, -, -, -, e4, e5⟩ := block_indices t
  have ht : t.val < 2 := lt_of_lt_of_eq t.isLt N_0
  refine funext fun (j : S256x1024.Idx) => ?_
  obtain ⟨r, s, rfl⟩ : ∃ (r : Fin 256) (s : Fin 1024), j = ix2 r s := ⟨j 0, j 1, eq_ix2 j⟩
  refine (payload_entry (iblk0 V c 0 t) (iblk0 V c 1 t) r s).trans ?_
  rw [View.read_apply]
  refine Eq.trans ?_ (product_entry (left V c) (right V c) _ (⟨256 * t.val + r.val, by omega⟩ : Fin 512) s ?_ ?_).symm
  · refine Finset.sum_congr rfl fun k _ => ?_
    rw [left_block V c t r k (ix2 (⟨256 * t.val + r.val, by omega⟩ : Fin 512) k) rfl rfl, right_block V c t k s]
  · show win0_2.index t (0 : Fin 2) * 256 + 1 * r.val = 256 * t.val + r.val
    rw [e4]; omega
  · show win0_2.index t (1 : Fin 2) * 1024 + 1 * s.val = s.val
    rw [e5]; omega

/-- An entry of the result array lies in point t's block iff each coordinate lies in the block's range on its axis. -/
theorem block_membership (t : Fin cfg0.N) (i : S512x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v8).slice (win0_2.rect t)).set ↔ _
  rw [View.set_slice_whole, Rect.mem_set_unit]
  exact Iff.rfl

/-- After the launch the result array is the product of the two operands as the launch found them. -/
theorem result_array (c : Dev nD) : (dat0 V c).arrAt 2 cfg0.N = product (M := 512) (left V c) (right V c) :=
  (dat0 V c).arrAt_eq_of_cover 2 _ (fun t _ => written_back V c t) fun i => by
    have hi0 : (i 0).val < 512 := (i 0).isLt
    have hi1 : (i 1).val < 1024 := (i 1).isLt
    have hN : cfg0.N = 2 := N_0
    have hq : (i 0).val / 256 < cfg0.N := by rw [hN]; omega
    obtain ⟨-, -, -, -, e4, e5⟩ := block_indices ⟨(i 0).val / 256, hq⟩
    refine ⟨⟨(i 0).val / 256, hq⟩, flush0_2 _, ?_⟩
    rw [block_membership]
    intro a
    match a with
    | ⟨0, _⟩ =>
      show win0_2.index ⟨(i 0).val / 256, hq⟩ (0 : Fin 2) * 256 ≤ (i 0).val ∧ (i 0).val < win0_2.index ⟨(i 0).val / 256, hq⟩ (0 : Fin 2) * 256 + 256
      rw [e4]; show (i 0).val / 256 * 256 ≤ (i 0).val ∧ (i 0).val < (i 0).val / 256 * 256 + 256; omega
    | ⟨1, _⟩ =>
      show win0_2.index ⟨(i 0).val / 256, hq⟩ (1 : Fin 2) * 1024 ≤ (i 1).val ∧ (i 1).val < win0_2.index ⟨(i 0).val / 256, hq⟩ (1 : Fin 2) * 1024 + 1024
      rw [e5]; omega

end Cert.KernelIdeal.Expert0

end
-- ==== Proof.Expert1.lean ====
/-
  Expert 1: what its launch leaves in its result array.

  The launch walks 4 grid points. Point t fetches rows 256 t … 256 t + 255 of the left operand (a 1024 x 1024 array) and the
  whole right operand, multiplies the slab by the right operand into a zero accumulator, and writes the 256 x 1024 result
  back as rows 256 t … 256 t + 255 of the result array. So what point t writes back is the block at t of ONE function of the
  two arrays as the launch finds them, their product (`written_back`); the 4 blocks tile the result array (row r lies in
  the block of point r / 256), so after the launch the array is that product (`result_array`).
-/
import proofs.«135188_j32349693674007_2_alg».proof.Proof.Gen.KernelIdeal.Frame
import proofs.«135188_j32349693674007_2_alg».proof.Proof.RowsByColumns
import Idealize.ShloMosaic.Lib.Pipeline.Value

set_option maxRecDepth 16384

noncomputable section

namespace Cert.KernelIdeal.Expert1

open Cert.KernelIdeal Cert.KernelIdeal.Gen Cert.RowsByColumns
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The left operand as the launch finds it. -/
abbrev left (c : Dev nD) : FVec Ideal S1024x1024 .f32 := V c main_arg2
/-- The right operand as the launch finds it (already rounded by the host). -/
abbrev right (c : Dev nD) : FVec Ideal S1024x1024 .bf16 := V c main_v1

theorem zero_offsets : (![0, 0] : Fin 2 → Nat) = fun _ => 0 := funext fun a => by fin_cases a <;> rfl

/-- The block each window holds at point t: the left operand's and the result's block t along the rows, the right
    operand's only block. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What the body stores, at entry (r, s): the slab's row r against the right operand's column s. -/
theorem payload_entry (x : FVec Ideal S256x1024 .f32) (y : FVec Ideal S1024x1024 .bf16) (r : Fin 256) (s : Fin 1024) :
    k1_pay1 (F := Ideal) x y (ix2 r s) = ∑ k : Fin 1024, x (ix2 r k) * y (ix2 k s) :=
  slab_entry Facts₀.dot_S256x1024_S1024x1024_S256x1024_1_0_0_1_n_n_wf x y _ _ r s

/-- Entry (r, k) of the left operand's block at point t is entry (256 t + r, k) of the left operand. -/
theorem left_block (c : Dev nD) (t : Fin cfg1.N) (r : Fin 256) (k : Fin 1024) (i : S1024x1024.Idx)
    (h0 : (i 0).val = 256 * t.val + r.val) (h1 : (i 1).val = k.val) :
    (iblk1 V c 0 t : FVec Ideal S256x1024 .f32) (ix2 r k) = left V c i := by
  obtain ⟨e0, e1, -⟩ := block_indices t
  unfold iblk1
  rw [View.read_apply]
  show V c main_arg2 _ = V c main_arg2 _
  refine congrArg _ (funext fun a => Fin.ext ?_)
  match a with
  | ⟨0, _⟩ => show win1_0.index t (0 : Fin 2) * 256 + 1 * r.val = (i 0).val; rw [e0, h0]; omega
  | ⟨1, _⟩ => show win1_0.index t (1 : Fin 2) * 1024 + 1 * k.val = (i 1).val; rw [e1, h1]; omega

/-- The right operand's block at any point is the whole right operand. -/
theorem right_block (c : Dev nD) (t : Fin cfg1.N) (k s : Fin 1024) :
    (iblk1 V c 1 t : FVec Ideal S1024x1024 .bf16) (ix2 k s) = right V c (ix2 k s) := by
  obtain ⟨-, -, e2, e3, -⟩ := block_indices t
  unfold iblk1
  rw [View.read_apply]
  show V c main_v1 _ = V c main_v1 _
  refine congrArg _ (funext fun a => Fin.ext ?_)
  match a with
  | ⟨0, _⟩ => show win1_1.index t (0 : Fin 2) * 1024 + 1 * k.val = k.val; rw [e2]; omega
  | ⟨1, _⟩ => show win1_1.index t (1 : Fin 2) * 1024 + 1 * s.val = s.val; rw [e3]; omega

/-- What point t writes back is block t of the product of the two operands as the launch finds them. -/
theorem written_back (c : Dev nD) (t : Fin cfg1.N) :
    (dat1 V c).flushed 2 t = ((cfg1.win 2).blk t).view.read (Elt Ideal) (product (M := 1024) (left V c) (right V c)) := by
  show (cfg1.win 2).cut (grid1.coords t) ((dat1 V c).after 2 t) = _
  rw [after1_2]
  unfold out1_2
  rw [View.canon_unit_zero zero_offsets]
  simp only [View.ld_unit_zero (S := S256x1024) zero_offsets, View.ld_unit_zero (S := S1024x1024) zero_offsets]
  obtain ⟨-, -, -, -, e4, e5⟩ := block_indices t
  have ht : t.val < 4 := lt_of_lt_of_eq t.isLt N_1
  refine funext fun (j : S256x1024.Idx) => ?_
  obtain ⟨r, s, rfl⟩ : ∃ (r : Fin 256) (s : Fin 1024), j = ix2 r s := ⟨j 0, j 1, eq_ix2 j⟩
  refine (payload_entry (iblk1 V c 0 t) (iblk1 V c 1 t) r s).trans ?_
  rw [View.read_apply]
  refine Eq.trans ?_ (product_entry (left V c) (right V c) _ (⟨256 * t.val + r.val, by omega⟩ : Fin 1024) s ?_ ?_).symm
  · refine Finset.sum_congr rfl fun k _ => ?_
    rw [left_block V c t r k (ix2 (⟨256 * t.val + r.val, by omega⟩ : Fin 1024) k) rfl rfl, right_block V c t k s]
  · show win1_2.index t (0 : Fin 2) * 256 + 1 * r.val = 256 * t.val + r.val
    rw [e4]; omega
  · show win1_2.index t (1 : Fin 2) * 1024 + 1 * s.val = s.val
    rw [e5]; omega

/-- An entry of the result array lies in point t's block iff each coordinate lies in the block's range on its axis. -/
theorem block_membership (t : Fin cfg1.N) (i : S1024x1024.Idx) :
    i ∈ ((cfg1.win 2).blk t).view.set ↔ ∀ a : Fin 2, win1_2.index t a * S256x1024.size a ≤ (i a).val ∧ (i a).val < win1_2.index t a * S256x1024.size a + S256x1024.size a := by
  show i ∈ ((View.whole main_v9).slice (win1_2.rect t)).set ↔ _
  rw [View.set_slice_whole, Rect.mem_set_unit]
  exact Iff.rfl

/-- After the launch the result array is the product of the two operands as the launch found them. -/
theorem result_array (c : Dev nD) : (dat1 V c).arrAt 2 cfg1.N = product (M := 1024) (left V c) (right V c) :=
  (dat1 V c).arrAt_eq_of_cover 2 _ (fun t _ => written_back V c t) fun i => by
    have hi0 : (i 0).val < 1024 := (i 0).isLt
    have hi1 : (i 1).val < 1024 := (i 1).isLt
    have hN : cfg1.N = 4 := N_1
    have hq : (i 0).val / 256 < cfg1.N := by rw [hN]; omega
    obtain ⟨-, -, -, -, e4, e5⟩ := block_indices ⟨(i 0).val / 256, hq⟩
    refine ⟨⟨(i 0).val / 256, hq⟩, flush1_2 _, ?_⟩
    rw [block_membership]
    intro a
    match a with
    | ⟨0, _⟩ =>
      show win1_2.index ⟨(i 0).val / 256, hq⟩ (0 : Fin 2) * 256 ≤ (i 0).val ∧ (i 0).val < win1_2.index ⟨(i 0).val / 256, hq⟩ (0 : Fin 2) * 256 + 256
      rw [e4]; show (i 0).val / 256 * 256 ≤ (i 0).val ∧ (i 0).val < (i 0).val / 256 * 256 + 256; omega
    | ⟨1, _⟩ =>
      show win1_2.index ⟨(i 0).val / 256, hq⟩ (1 : Fin 2) * 1024 ≤ (i 1).val ∧ (i 1).val < win1_2.index ⟨(i 0).val / 256, hq⟩ (1 : Fin 2) * 1024 + 1024
      rw [e5]; omega

end Cert.KernelIdeal.Expert1

end
-- ==== Proof.Expert2.lean ====
/-
  Expert 2: what its launch leaves in its result array.

  The launch walks 8 grid points. Point t fetches rows 256 t … 256 t + 255 of the left operand (a 2048 x 1024 array) and the
  whole right operand, multiplies the slab by the right operand into a zero accumulator, and writes the 256 x 1024 result
  back as rows 256 t … 256 t + 255 of the result array. So what point t writes back is the block at t of ONE function of the
  two arrays as the launch finds them, their product (`written_back`); the 8 blocks tile the result array (row r lies in
  the block of point r / 256), so after the launch the array is that product (`result_array`).
-/
import proofs.«135188_j32349693674007_2_alg».proof.Proof.Gen.KernelIdeal.Frame
import proofs.«135188_j32349693674007_2_alg».proof.Proof.RowsByColumns
import Idealize.ShloMosaic.Lib.Pipeline.Value

set_option maxRecDepth 16384

noncomputable section

namespace Cert.KernelIdeal.Expert2

open Cert.KernelIdeal Cert.KernelIdeal.Gen Cert.RowsByColumns
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The left operand as the launch finds it. -/
abbrev left (c : Dev nD) : FVec Ideal S2048x1024 .f32 := V c main_arg4
/-- The right operand as the launch finds it (already rounded by the host). -/
abbrev right (c : Dev nD) : FVec Ideal S1024x1024 .bf16 := V c main_v2

theorem zero_offsets : (![0, 0] : Fin 2 → Nat) = fun _ => 0 := funext fun a => by fin_cases a <;> rfl

/-- The block each window holds at point t: the left operand's and the result's block t along the rows, the right
    operand's only block. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What the body stores, at entry (r, s): the slab's row r against the right operand's column s. -/
theorem payload_entry (x : FVec Ideal S256x1024 .f32) (y : FVec Ideal S1024x1024 .bf16) (r : Fin 256) (s : Fin 1024) :
    k2_pay1 (F := Ideal) x y (ix2 r s) = ∑ k : Fin 1024, x (ix2 r k) * y (ix2 k s) :=
  slab_entry Facts₀.dot_S256x1024_S1024x1024_S256x1024_1_0_0_1_n_n_wf x y _ _ r s

/-- Entry (r, k) of the left operand's block at point t is entry (256 t + r, k) of the left operand. -/
theorem left_block (c : Dev nD) (t : Fin cfg2.N) (r : Fin 256) (k : Fin 1024) (i : S2048x1024.Idx)
    (h0 : (i 0).val = 256 * t.val + r.val) (h1 : (i 1).val = k.val) :
    (iblk2 V c 0 t : FVec Ideal S256x1024 .f32) (ix2 r k) = left V c i := by
  obtain ⟨e0, e1, -⟩ := block_indices t
  unfold iblk2
  rw [View.read_apply]
  show V c main_arg4 _ = V c main_arg4 _
  refine congrArg _ (funext fun a => Fin.ext ?_)
  match a with
  | ⟨0, _⟩ => show win2_0.index t (0 : Fin 2) * 256 + 1 * r.val = (i 0).val; rw [e0, h0]; omega
  | ⟨1, _⟩ => show win2_0.index t (1 : Fin 2) * 1024 + 1 * k.val = (i 1).val; rw [e1, h1]; omega

/-- The right operand's block at any point is the whole right operand. -/
theorem right_block (c : Dev nD) (t : Fin cfg2.N) (k s : Fin 1024) :
    (iblk2 V c 1 t : FVec Ideal S1024x1024 .bf16) (ix2 k s) = right V c (ix2 k s) := by
  obtain ⟨-, -, e2, e3, -⟩ := block_indices t
  unfold iblk2
  rw [View.read_apply]
  show V c main_v2 _ = V c main_v2 _
  refine congrArg _ (funext fun a => Fin.ext ?_)
  match a with
  | ⟨0, _⟩ => show win2_1.index t (0 : Fin 2) * 1024 + 1 * k.val = k.val; rw [e2]; omega
  | ⟨1, _⟩ => show win2_1.index t (1 : Fin 2) * 1024 + 1 * s.val = s.val; rw [e3]; omega

/-- What point t writes back is block t of the product of the two operands as the launch finds them. -/
theorem written_back (c : Dev nD) (t : Fin cfg2.N) :
    (dat2 V c).flushed 2 t = ((cfg2.win 2).blk t).view.read (Elt Ideal) (product (M := 2048) (left V c) (right V c)) := by
  show (cfg2.win 2).cut (grid2.coords t) ((dat2 V c).after 2 t) = _
  rw [after2_2]
  unfold out2_2
  rw [View.canon_unit_zero zero_offsets]
  simp only [View.ld_unit_zero (S := S256x1024) zero_offsets, View.ld_unit_zero (S := S1024x1024) zero_offsets]
  obtain ⟨-, -, -, -, e4, e5⟩ := block_indices t
  have ht : t.val < 8 := lt_of_lt_of_eq t.isLt N_2
  refine funext fun (j : S256x1024.Idx) => ?_
  obtain ⟨r, s, rfl⟩ : ∃ (r : Fin 256) (s : Fin 1024), j = ix2 r s := ⟨j 0, j 1, eq_ix2 j⟩
  refine (payload_entry (iblk2 V c 0 t) (iblk2 V c 1 t) r s).trans ?_
  rw [View.read_apply]
  refine Eq.trans ?_ (product_entry (left V c) (right V c) _ (⟨256 * t.val + r.val, by omega⟩ : Fin 2048) s ?_ ?_).symm
  · refine Finset.sum_congr rfl fun k _ => ?_
    rw [left_block V c t r k (ix2 (⟨256 * t.val + r.val, by omega⟩ : Fin 2048) k) rfl rfl, right_block V c t k s]
  · show win2_2.index t (0 : Fin 2) * 256 + 1 * r.val = 256 * t.val + r.val
    rw [e4]; omega
  · show win2_2.index t (1 : Fin 2) * 1024 + 1 * s.val = s.val
    rw [e5]; omega

/-- An entry of the result array lies in point t's block iff each coordinate lies in the block's range on its axis. -/
theorem block_membership (t : Fin cfg2.N) (i : S2048x1024.Idx) :
    i ∈ ((cfg2.win 2).blk t).view.set ↔ ∀ a : Fin 2, win2_2.index t a * S256x1024.size a ≤ (i a).val ∧ (i a).val < win2_2.index t a * S256x1024.size a + S256x1024.size a := by
  show i ∈ ((View.whole main_v10).slice (win2_2.rect t)).set ↔ _
  rw [View.set_slice_whole, Rect.mem_set_unit]
  exact Iff.rfl

/-- After the launch the result array is the product of the two operands as the launch found them. -/
theorem result_array (c : Dev nD) : (dat2 V c).arrAt 2 cfg2.N = product (M := 2048) (left V c) (right V c) :=
  (dat2 V c).arrAt_eq_of_cover 2 _ (fun t _ => written_back V c t) fun i => by
    have hi0 : (i 0).val < 2048 := (i 0).isLt
    have hi1 : (i 1).val < 1024 := (i 1).isLt
    have hN : cfg2.N = 8 := N_2
    have hq : (i 0).val / 256 < cfg2.N := by rw [hN]; omega
    obtain ⟨-, -, -, -, e4, e5⟩ := block_indices ⟨(i 0).val / 256, hq⟩
    refine ⟨⟨(i 0).val / 256, hq⟩, flush2_2 _, ?_⟩
    rw [block_membership]
    intro a
    match a with
    | ⟨0, _⟩ =>
      show win2_2.index ⟨(i 0).val / 256, hq⟩ (0 : Fin 2) * 256 ≤ (i 0).val ∧ (i 0).val < win2_2.index ⟨(i 0).val / 256, hq⟩ (0 : Fin 2) * 256 + 256
      rw [e4]; show (i 0).val / 256 * 256 ≤ (i 0).val ∧ (i 0).val < (i 0).val / 256 * 256 + 256; omega
    | ⟨1, _⟩ =>
      show win2_2.index ⟨(i 0).val / 256, hq⟩ (1 : Fin 2) * 1024 ≤ (i 1).val ∧ (i 1).val < win2_2.index ⟨(i 0).val / 256, hq⟩ (1 : Fin 2) * 1024 + 1024
      rw [e5]; omega

end Cert.KernelIdeal.Expert2

end
-- ==== Proof.Expert3.lean ====
/-
  Expert 3: what its launch leaves in its result array.

  The launch walks 16 grid points. Point t fetches rows 256 t … 256 t + 255 of the left operand (a 4096 x 1024 array) and the
  whole right operand, multiplies the slab by the right operand into a zero accumulator, and writes the 256 x 1024 result
  back as rows 256 t … 256 t + 255 of the result array. So what point t writes back is the block at t of ONE function of the
  two arrays as the launch finds them, their product (`written_back`); the 16 blocks tile the result array (row r lies in
  the block of point r / 256), so after the launch the array is that product (`result_array`).
-/
import proofs.«135188_j32349693674007_2_alg».proof.Proof.Gen.KernelIdeal.Frame
import proofs.«135188_j32349693674007_2_alg».proof.Proof.RowsByColumns
import Idealize.ShloMosaic.Lib.Pipeline.Value

set_option maxRecDepth 16384

noncomputable section

namespace Cert.KernelIdeal.Expert3

open Cert.KernelIdeal Cert.KernelIdeal.Gen Cert.RowsByColumns
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The left operand as the launch finds it. -/
abbrev left (c : Dev nD) : FVec Ideal S4096x1024 .f32 := V c main_arg6
/-- The right operand as the launch finds it (already rounded by the host). -/
abbrev right (c : Dev nD) : FVec Ideal S1024x1024 .bf16 := V c main_v3

theorem zero_offsets : (![0, 0] : Fin 2 → Nat) = fun _ => 0 := funext fun a => by fin_cases a <;> rfl

/-- The block each window holds at point t: the left operand's and the result's block t along the rows, the right
    operand's only block. -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What the body stores, at entry (r, s): the slab's row r against the right operand's column s. -/
theorem payload_entry (x : FVec Ideal S256x1024 .f32) (y : FVec Ideal S1024x1024 .bf16) (r : Fin 256) (s : Fin 1024) :
    k3_pay1 (F := Ideal) x y (ix2 r s) = ∑ k : Fin 1024, x (ix2 r k) * y (ix2 k s) :=
  slab_entry Facts₀.dot_S256x1024_S1024x1024_S256x1024_1_0_0_1_n_n_wf x y _ _ r s

/-- Entry (r, k) of the left operand's block at point t is entry (256 t + r, k) of the left operand. -/
theorem left_block (c : Dev nD) (t : Fin cfg3.N) (r : Fin 256) (k : Fin 1024) (i : S4096x1024.Idx)
    (h0 : (i 0).val = 256 * t.val + r.val) (h1 : (i 1).val = k.val) :
    (iblk3 V c 0 t : FVec Ideal S256x1024 .f32) (ix2 r k) = left V c i := by
  obtain ⟨e0, e1, -⟩ := block_indices t
  unfold iblk3
  rw [View.read_apply]
  show V c main_arg6 _ = V c main_arg6 _
  refine congrArg _ (funext fun a => Fin.ext ?_)
  match a with
  | ⟨0, _⟩ => show win3_0.index t (0 : Fin 2) * 256 + 1 * r.val = (i 0).val; rw [e0, h0]; omega
  | ⟨1, _⟩ => show win3_0.index t (1 : Fin 2) * 1024 + 1 * k.val = (i 1).val; rw [e1, h1]; omega

/-- The right operand's block at any point is the whole right operand. -/
theorem right_block (c : Dev nD) (t : Fin cfg3.N) (k s : Fin 1024) :
    (iblk3 V c 1 t : FVec Ideal S1024x1024 .bf16) (ix2 k s) = right V c (ix2 k s) := by
  obtain ⟨-, -, e2, e3, -⟩ := block_indices t
  unfold iblk3
  rw [View.read_apply]
  show V c main_v3 _ = V c main_v3 _
  refine congrArg _ (funext fun a => Fin.ext ?_)
  match a with
  | ⟨0, _⟩ => show win3_1.index t (0 : Fin 2) * 1024 + 1 * k.val = k.val; rw [e2]; omega
  | ⟨1, _⟩ => show win3_1.index t (1 : Fin 2) * 1024 + 1 * s.val = s.val; rw [e3]; omega

/-- What point t writes back is block t of the product of the two operands as the launch finds them. -/
theorem written_back (c : Dev nD) (t : Fin cfg3.N) :
    (dat3 V c).flushed 2 t = ((cfg3.win 2).blk t).view.read (Elt Ideal) (product (M := 4096) (left V c) (right V c)) := by
  show (cfg3.win 2).cut (grid3.coords t) ((dat3 V c).after 2 t) = _
  rw [after3_2]
  unfold out3_2
  rw [View.canon_unit_zero zero_offsets]
  simp only [View.ld_unit_zero (S := S256x1024) zero_offsets, View.ld_unit_zero (S := S1024x1024) zero_offsets]
  obtain ⟨-, -, -, -, e4, e5⟩ := block_indices t
  have ht : t.val < 16 := lt_of_lt_of_eq t.isLt N_3
  refine funext fun (j : S256x1024.Idx) => ?_
  obtain ⟨r, s, rfl⟩ : ∃ (r : Fin 256) (s : Fin 1024), j = ix2 r s := ⟨j 0, j 1, eq_ix2 j⟩
  refine (payload_entry (iblk3 V c 0 t) (iblk3 V c 1 t) r s).trans ?_
  rw [View.read_apply]
  refine Eq.trans ?_ (product_entry (left V c) (right V c) _ (⟨256 * t.val + r.val, by omega⟩ : Fin 4096) s ?_ ?_).symm
  · refine Finset.sum_congr rfl fun k _ => ?_
    rw [left_block V c t r k (ix2 (⟨256 * t.val + r.val, by omega⟩ : Fin 4096) k) rfl rfl, right_block V c t k s]
  · show win3_2.index t (0 : Fin 2) * 256 + 1 * r.val = 256 * t.val + r.val
    rw [e4]; omega
  · show win3_2.index t (1 : Fin 2) * 1024 + 1 * s.val = s.val
    rw [e5]; omega

/-- An entry of the result array lies in point t's block iff each coordinate lies in the block's range on its axis. -/
theorem block_membership (t : Fin cfg3.N) (i : S4096x1024.Idx) :
    i ∈ ((cfg3.win 2).blk t).view.set ↔ ∀ a : Fin 2, win3_2.index t a * S256x1024.size a ≤ (i a).val ∧ (i a).val < win3_2.index t a * S256x1024.size a + S256x1024.size a := by
  show i ∈ ((View.whole main_v11).slice (win3_2.rect t)).set ↔ _
  rw [View.set_slice_whole, Rect.mem_set_unit]
  exact Iff.rfl

/-- After the launch the result array is the product of the two operands as the launch found them. -/
theorem result_array (c : Dev nD) : (dat3 V c).arrAt 2 cfg3.N = product (M := 4096) (left V c) (right V c) :=
  (dat3 V c).arrAt_eq_of_cover 2 _ (fun t _ => written_back V c t) fun i => by
    have hi0 : (i 0).val < 4096 := (i 0).isLt
    have hi1 : (i 1).val < 1024 := (i 1).isLt
    have hN : cfg3.N = 16 := N_3
    have hq : (i 0).val / 256 < cfg3.N := by rw [hN]; omega
    obtain ⟨-, -, -, -, e4, e5⟩ := block_indices ⟨(i 0).val / 256, hq⟩
    refine ⟨⟨(i 0).val / 256, hq⟩, flush3_2 _, ?_⟩
    rw [block_membership]
    intro a
    match a with
    | ⟨0, _⟩ =>
      show win3_2.index ⟨(i 0).val / 256, hq⟩ (0 : Fin 2) * 256 ≤ (i 0).val ∧ (i 0).val < win3_2.index ⟨(i 0).val / 256, hq⟩ (0 : Fin 2) * 256 + 256
      rw [e4]; show (i 0).val / 256 * 256 ≤ (i 0).val ∧ (i 0).val < (i 0).val / 256 * 256 + 256; omega
    | ⟨1, _⟩ =>
      show win3_2.index ⟨(i 0).val / 256, hq⟩ (1 : Fin 2) * 1024 ≤ (i 1).val ∧ (i 1).val < win3_2.index ⟨(i 0).val / 256, hq⟩ (1 : Fin 2) * 1024 + 1024
      rw [e5]; omega

end Cert.KernelIdeal.Expert3

end
-- ==== Proof.Expert4.lean ====
/-
  Expert 4: what its launch leaves in its result array.

  The launch walks 6 grid points. Point t fetches rows 256 t … 256 t + 255 of the left operand (a 1536 x 1024 array) and the
  whole right operand, multiplies the slab by the right operand into a zero accumulator, and writes the 256 x 1024 result
  back as rows 256 t … 256 t + 255 of the result array. So what point t writes back is the block at t of ONE function of the
  two arrays as the launch finds them, their product (`written_back`); the 6 blocks tile the result array (row r lies in
  the block of point r / 256), so after the launch the array is that product (`result_array`).
-/
import proofs.«135188_j32349693674007_2_alg».proof.Proof.Gen.KernelIdeal.Frame
import proofs.«135188_j32349693674007_2_alg».proof.Proof.RowsByColumns
import Idealize.ShloMosaic.Lib.Pipeline.Value

set_option maxRecDepth 16384

noncomputable section

namespace Cert.KernelIdeal.Expert4

open Cert.KernelIdeal Cert.KernelIdeal.Gen Cert.RowsByColumns
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The left operand as the launch finds it. -/
abbrev left (c : Dev nD) : FVec Ideal S1536x1024 .f32 := V c main_arg8
/-- The right operand as the launch finds it (already rounded by the host). -/
abbrev right (c : Dev nD) : FVec Ideal S1024x1024 .bf16 := V c main_v4

theorem zero_offsets : (![0, 0] : Fin 2 → Nat) = fun _ => 0 := funext fun a => by fin_cases a <;> rfl

/-- The block each window holds at point t: the left operand's and the result's block t along the rows, the right
    operand's only block. -/
theorem block_indices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What the body stores, at entry (r, s): the slab's row r against the right operand's column s. -/
theorem payload_entry (x : FVec Ideal S256x1024 .f32) (y : FVec Ideal S1024x1024 .bf16) (r : Fin 256) (s : Fin 1024) :
    k4_pay1 (F := Ideal) x y (ix2 r s) = ∑ k : Fin 1024, x (ix2 r k) * y (ix2 k s) :=
  slab_entry Facts₀.dot_S256x1024_S1024x1024_S256x1024_1_0_0_1_n_n_wf x y _ _ r s

/-- Entry (r, k) of the left operand's block at point t is entry (256 t + r, k) of the left operand. -/
theorem left_block (c : Dev nD) (t : Fin cfg4.N) (r : Fin 256) (k : Fin 1024) (i : S1536x1024.Idx)
    (h0 : (i 0).val = 256 * t.val + r.val) (h1 : (i 1).val = k.val) :
    (iblk4 V c 0 t : FVec Ideal S256x1024 .f32) (ix2 r k) = left V c i := by
  obtain ⟨e0, e1, -⟩ := block_indices t
  unfold iblk4
  rw [View.read_apply]
  show V c main_arg8 _ = V c main_arg8 _
  refine congrArg _ (funext fun a => Fin.ext ?_)
  match a with
  | ⟨0, _⟩ => show win4_0.index t (0 : Fin 2) * 256 + 1 * r.val = (i 0).val; rw [e0, h0]; omega
  | ⟨1, _⟩ => show win4_0.index t (1 : Fin 2) * 1024 + 1 * k.val = (i 1).val; rw [e1, h1]; omega

/-- The right operand's block at any point is the whole right operand. -/
theorem right_block (c : Dev nD) (t : Fin cfg4.N) (k s : Fin 1024) :
    (iblk4 V c 1 t : FVec Ideal S1024x1024 .bf16) (ix2 k s) = right V c (ix2 k s) := by
  obtain ⟨-, -, e2, e3, -⟩ := block_indices t
  unfold iblk4
  rw [View.read_apply]
  show V c main_v4 _ = V c main_v4 _
  refine congrArg _ (funext fun a => Fin.ext ?_)
  match a with
  | ⟨0, _⟩ => show win4_1.index t (0 : Fin 2) * 1024 + 1 * k.val = k.val; rw [e2]; omega
  | ⟨1, _⟩ => show win4_1.index t (1 : Fin 2) * 1024 + 1 * s.val = s.val; rw [e3]; omega

/-- What point t writes back is block t of the product of the two operands as the launch finds them. -/
theorem written_back (c : Dev nD) (t : Fin cfg4.N) :
    (dat4 V c).flushed 2 t = ((cfg4.win 2).blk t).view.read (Elt Ideal) (product (M := 1536) (left V c) (right V c)) := by
  show (cfg4.win 2).cut (grid4.coords t) ((dat4 V c).after 2 t) = _
  rw [after4_2]
  unfold out4_2
  rw [View.canon_unit_zero zero_offsets]
  simp only [View.ld_unit_zero (S := S256x1024) zero_offsets, View.ld_unit_zero (S := S1024x1024) zero_offsets]
  obtain ⟨-, -, -, -, e4, e5⟩ := block_indices t
  have ht : t.val < 6 := lt_of_lt_of_eq t.isLt N_4
  refine funext fun (j : S256x1024.Idx) => ?_
  obtain ⟨r, s, rfl⟩ : ∃ (r : Fin 256) (s : Fin 1024), j = ix2 r s := ⟨j 0, j 1, eq_ix2 j⟩
  refine (payload_entry (iblk4 V c 0 t) (iblk4 V c 1 t) r s).trans ?_
  rw [View.read_apply]
  refine Eq.trans ?_ (product_entry (left V c) (right V c) _ (⟨256 * t.val + r.val, by omega⟩ : Fin 1536) s ?_ ?_).symm
  · refine Finset.sum_congr rfl fun k _ => ?_
    rw [left_block V c t r k (ix2 (⟨256 * t.val + r.val, by omega⟩ : Fin 1536) k) rfl rfl, right_block V c t k s]
  · show win4_2.index t (0 : Fin 2) * 256 + 1 * r.val = 256 * t.val + r.val
    rw [e4]; omega
  · show win4_2.index t (1 : Fin 2) * 1024 + 1 * s.val = s.val
    rw [e5]; omega

/-- An entry of the result array lies in point t's block iff each coordinate lies in the block's range on its axis. -/
theorem block_membership (t : Fin cfg4.N) (i : S1536x1024.Idx) :
    i ∈ ((cfg4.win 2).blk t).view.set ↔ ∀ a : Fin 2, win4_2.index t a * S256x1024.size a ≤ (i a).val ∧ (i a).val < win4_2.index t a * S256x1024.size a + S256x1024.size a := by
  show i ∈ ((View.whole main_v12).slice (win4_2.rect t)).set ↔ _
  rw [View.set_slice_whole, Rect.mem_set_unit]
  exact Iff.rfl

/-- After the launch the result array is the product of the two operands as the launch found them. -/
theorem result_array (c : Dev nD) : (dat4 V c).arrAt 2 cfg4.N = product (M := 1536) (left V c) (right V c) :=
  (dat4 V c).arrAt_eq_of_cover 2 _ (fun t _ => written_back V c t) fun i => by
    have hi0 : (i 0).val < 1536 := (i 0).isLt
    have hi1 : (i 1).val < 1024 := (i 1).isLt
    have hN : cfg4.N = 6 := N_4
    have hq : (i 0).val / 256 < cfg4.N := by rw [hN]; omega
    obtain ⟨-, -, -, -, e4, e5⟩ := block_indices ⟨(i 0).val / 256, hq⟩
    refine ⟨⟨(i 0).val / 256, hq⟩, flush4_2 _, ?_⟩
    rw [block_membership]
    intro a
    match a with
    | ⟨0, _⟩ =>
      show win4_2.index ⟨(i 0).val / 256, hq⟩ (0 : Fin 2) * 256 ≤ (i 0).val ∧ (i 0).val < win4_2.index ⟨(i 0).val / 256, hq⟩ (0 : Fin 2) * 256 + 256
      rw [e4]; show (i 0).val / 256 * 256 ≤ (i 0).val ∧ (i 0).val < (i 0).val / 256 * 256 + 256; omega
    | ⟨1, _⟩ =>
      show win4_2.index ⟨(i 0).val / 256, hq⟩ (1 : Fin 2) * 1024 ≤ (i 1).val ∧ (i 1).val < win4_2.index ⟨(i 0).val / 256, hq⟩ (1 : Fin 2) * 1024 + 1024
      rw [e5]; omega

end Cert.KernelIdeal.Expert4

end
-- ==== Proof.Expert5.lean ====
/-
  Expert 5: what its launch leaves in its result array.

  The launch walks 3 grid points. Point t fetches rows 256 t … 256 t + 255 of the left operand (a 768 x 1024 array) and the
  whole right operand, multiplies the slab by the right operand into a zero accumulator, and writes the 256 x 1024 result
  back as rows 256 t … 256 t + 255 of the result array. So what point t writes back is the block at t of ONE function of the
  two arrays as the launch finds them, their product (`written_back`); the 3 blocks tile the result array (row r lies in
  the block of point r / 256), so after the launch the array is that product (`result_array`).
-/
import proofs.«135188_j32349693674007_2_alg».proof.Proof.Gen.KernelIdeal.Frame
import proofs.«135188_j32349693674007_2_alg».proof.Proof.RowsByColumns
import Idealize.ShloMosaic.Lib.Pipeline.Value

set_option maxRecDepth 16384

noncomputable section

namespace Cert.KernelIdeal.Expert5

open Cert.KernelIdeal Cert.KernelIdeal.Gen Cert.RowsByColumns
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The left operand as the launch finds it. -/
abbrev left (c : Dev nD) : FVec Ideal S768x1024 .f32 := V c main_arg10
/-- The right operand as the launch finds it (already rounded by the host). -/
abbrev right (c : Dev nD) : FVec Ideal S1024x1024 .bf16 := V c main_v5

theorem zero_offsets : (![0, 0] : Fin 2 → Nat) = fun _ => 0 := funext fun a => by fin_cases a <;> rfl

/-- The block each window holds at point t: the left operand's and the result's block t along the rows, the right
    operand's only block. -/
theorem block_indices : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What the body stores, at entry (r, s): the slab's row r against the right operand's column s. -/
theorem payload_entry (x : FVec Ideal S256x1024 .f32) (y : FVec Ideal S1024x1024 .bf16) (r : Fin 256) (s : Fin 1024) :
    k5_pay1 (F := Ideal) x y (ix2 r s) = ∑ k : Fin 1024, x (ix2 r k) * y (ix2 k s) :=
  slab_entry Facts₀.dot_S256x1024_S1024x1024_S256x1024_1_0_0_1_n_n_wf x y _ _ r s

/-- Entry (r, k) of the left operand's block at point t is entry (256 t + r, k) of the left operand. -/
theorem left_block (c : Dev nD) (t : Fin cfg5.N) (r : Fin 256) (k : Fin 1024) (i : S768x1024.Idx)
    (h0 : (i 0).val = 256 * t.val + r.val) (h1 : (i 1).val = k.val) :
    (iblk5 V c 0 t : FVec Ideal S256x1024 .f32) (ix2 r k) = left V c i := by
  obtain ⟨e0, e1, -⟩ := block_indices t
  unfold iblk5
  rw [View.read_apply]
  show V c main_arg10 _ = V c main_arg10 _
  refine congrArg _ (funext fun a => Fin.ext ?_)
  match a with
  | ⟨0, _⟩ => show win5_0.index t (0 : Fin 2) * 256 + 1 * r.val = (i 0).val; rw [e0, h0]; omega
  | ⟨1, _⟩ => show win5_0.index t (1 : Fin 2) * 1024 + 1 * k.val = (i 1).val; rw [e1, h1]; omega

/-- The right operand's block at any point is the whole right operand. -/
theorem right_block (c : Dev nD) (t : Fin cfg5.N) (k s : Fin 1024) :
    (iblk5 V c 1 t : FVec Ideal S1024x1024 .bf16) (ix2 k s) = right V c (ix2 k s) := by
  obtain ⟨-, -, e2, e3, -⟩ := block_indices t
  unfold iblk5
  rw [View.read_apply]
  show V c main_v5 _ = V c main_v5 _
  refine congrArg _ (funext fun a => Fin.ext ?_)
  match a with
  | ⟨0, _⟩ => show win5_1.index t (0 : Fin 2) * 1024 + 1 * k.val = k.val; rw [e2]; omega
  | ⟨1, _⟩ => show win5_1.index t (1 : Fin 2) * 1024 + 1 * s.val = s.val; rw [e3]; omega

/-- What point t writes back is block t of the product of the two operands as the launch finds them. -/
theorem written_back (c : Dev nD) (t : Fin cfg5.N) :
    (dat5 V c).flushed 2 t = ((cfg5.win 2).blk t).view.read (Elt Ideal) (product (M := 768) (left V c) (right V c)) := by
  show (cfg5.win 2).cut (grid5.coords t) ((dat5 V c).after 2 t) = _
  rw [after5_2]
  unfold out5_2
  rw [View.canon_unit_zero zero_offsets]
  simp only [View.ld_unit_zero (S := S256x1024) zero_offsets, View.ld_unit_zero (S := S1024x1024) zero_offsets]
  obtain ⟨-, -, -, -, e4, e5⟩ := block_indices t
  have ht : t.val < 3 := lt_of_lt_of_eq t.isLt N_5
  refine funext fun (j : S256x1024.Idx) => ?_
  obtain ⟨r, s, rfl⟩ : ∃ (r : Fin 256) (s : Fin 1024), j = ix2 r s := ⟨j 0, j 1, eq_ix2 j⟩
  refine (payload_entry (iblk5 V c 0 t) (iblk5 V c 1 t) r s).trans ?_
  rw [View.read_apply]
  refine Eq.trans ?_ (product_entry (left V c) (right V c) _ (⟨256 * t.val + r.val, by omega⟩ : Fin 768) s ?_ ?_).symm
  · refine Finset.sum_congr rfl fun k _ => ?_
    rw [left_block V c t r k (ix2 (⟨256 * t.val + r.val, by omega⟩ : Fin 768) k) rfl rfl, right_block V c t k s]
  · show win5_2.index t (0 : Fin 2) * 256 + 1 * r.val = 256 * t.val + r.val
    rw [e4]; omega
  · show win5_2.index t (1 : Fin 2) * 1024 + 1 * s.val = s.val
    rw [e5]; omega

/-- An entry of the result array lies in point t's block iff each coordinate lies in the block's range on its axis. -/
theorem block_membership (t : Fin cfg5.N) (i : S768x1024.Idx) :
    i ∈ ((cfg5.win 2).blk t).view.set ↔ ∀ a : Fin 2, win5_2.index t a * S256x1024.size a ≤ (i a).val ∧ (i a).val < win5_2.index t a * S256x1024.size a + S256x1024.size a := by
  show i ∈ ((View.whole main_v13).slice (win5_2.rect t)).set ↔ _
  rw [View.set_slice_whole, Rect.mem_set_unit]
  exact Iff.rfl

/-- After the launch the result array is the product of the two operands as the launch found them. -/
theorem result_array (c : Dev nD) : (dat5 V c).arrAt 2 cfg5.N = product (M := 768) (left V c) (right V c) :=
  (dat5 V c).arrAt_eq_of_cover 2 _ (fun t _ => written_back V c t) fun i => by
    have hi0 : (i 0).val < 768 := (i 0).isLt
    have hi1 : (i 1).val < 1024 := (i 1).isLt
    have hN : cfg5.N = 3 := N_5
    have hq : (i 0).val / 256 < cfg5.N := by rw [hN]; omega
    obtain ⟨-, -, -, -, e4, e5⟩ := block_indices ⟨(i 0).val / 256, hq⟩
    refine ⟨⟨(i 0).val / 256, hq⟩, flush5_2 _, ?_⟩
    rw [block_membership]
    intro a
    match a with
    | ⟨0, _⟩ =>
      show win5_2.index ⟨(i 0).val / 256, hq⟩ (0 : Fin 2) * 256 ≤ (i 0).val ∧ (i 0).val < win5_2.index ⟨(i 0).val / 256, hq⟩ (0 : Fin 2) * 256 + 256
      rw [e4]; show (i 0).val / 256 * 256 ≤ (i 0).val ∧ (i 0).val < (i 0).val / 256 * 256 + 256; omega
    | ⟨1, _⟩ =>
      show win5_2.index ⟨(i 0).val / 256, hq⟩ (1 : Fin 2) * 1024 ≤ (i 1).val ∧ (i 1).val < win5_2.index ⟨(i 0).val / 256, hq⟩ (1 : Fin 2) * 1024 + 1024
      rw [e5]; omega

end Cert.KernelIdeal.Expert5

end
-- ==== Proof.Expert6.lean ====
/-
  Expert 6: what its launch leaves in its result array.

  The launch walks 12 grid points. Point t fetches rows 256 t … 256 t + 255 of the left operand (a 3072 x 1024 array) and the
  whole right operand, multiplies the slab by the right operand into a zero accumulator, and writes the 256 x 1024 result
  back as rows 256 t … 256 t + 255 of the result array. So what point t writes back is the block at t of ONE function of the
  two arrays as the launch finds them, their product (`written_back`); the 12 blocks tile the result array (row r lies in
  the block of point r / 256), so after the launch the array is that product (`result_array`).
-/
import proofs.«135188_j32349693674007_2_alg».proof.Proof.Gen.KernelIdeal.Frame
import proofs.«135188_j32349693674007_2_alg».proof.Proof.RowsByColumns
import Idealize.ShloMosaic.Lib.Pipeline.Value

set_option maxRecDepth 16384

noncomputable section

namespace Cert.KernelIdeal.Expert6

open Cert.KernelIdeal Cert.KernelIdeal.Gen Cert.RowsByColumns
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The left operand as the launch finds it. -/
abbrev left (c : Dev nD) : FVec Ideal S3072x1024 .f32 := V c main_arg12
/-- The right operand as the launch finds it (already rounded by the host). -/
abbrev right (c : Dev nD) : FVec Ideal S1024x1024 .bf16 := V c main_v6

theorem zero_offsets : (![0, 0] : Fin 2 → Nat) = fun _ => 0 := funext fun a => by fin_cases a <;> rfl

/-- The block each window holds at point t: the left operand's and the result's block t along the rows, the right
    operand's only block. -/
theorem block_indices : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What the body stores, at entry (r, s): the slab's row r against the right operand's column s. -/
theorem payload_entry (x : FVec Ideal S256x1024 .f32) (y : FVec Ideal S1024x1024 .bf16) (r : Fin 256) (s : Fin 1024) :
    k6_pay1 (F := Ideal) x y (ix2 r s) = ∑ k : Fin 1024, x (ix2 r k) * y (ix2 k s) :=
  slab_entry Facts₀.dot_S256x1024_S1024x1024_S256x1024_1_0_0_1_n_n_wf x y _ _ r s

/-- Entry (r, k) of the left operand's block at point t is entry (256 t + r, k) of the left operand. -/
theorem left_block (c : Dev nD) (t : Fin cfg6.N) (r : Fin 256) (k : Fin 1024) (i : S3072x1024.Idx)
    (h0 : (i 0).val = 256 * t.val + r.val) (h1 : (i 1).val = k.val) :
    (iblk6 V c 0 t : FVec Ideal S256x1024 .f32) (ix2 r k) = left V c i := by
  obtain ⟨e0, e1, -⟩ := block_indices t
  unfold iblk6
  rw [View.read_apply]
  show V c main_arg12 _ = V c main_arg12 _
  refine congrArg _ (funext fun a => Fin.ext ?_)
  match a with
  | ⟨0, _⟩ => show win6_0.index t (0 : Fin 2) * 256 + 1 * r.val = (i 0).val; rw [e0, h0]; omega
  | ⟨1, _⟩ => show win6_0.index t (1 : Fin 2) * 1024 + 1 * k.val = (i 1).val; rw [e1, h1]; omega

/-- The right operand's block at any point is the whole right operand. -/
theorem right_block (c : Dev nD) (t : Fin cfg6.N) (k s : Fin 1024) :
    (iblk6 V c 1 t : FVec Ideal S1024x1024 .bf16) (ix2 k s) = right V c (ix2 k s) := by
  obtain ⟨-, -, e2, e3, -⟩ := block_indices t
  unfold iblk6
  rw [View.read_apply]
  show V c main_v6 _ = V c main_v6 _
  refine congrArg _ (funext fun a => Fin.ext ?_)
  match a with
  | ⟨0, _⟩ => show win6_1.index t (0 : Fin 2) * 1024 + 1 * k.val = k.val; rw [e2]; omega
  | ⟨1, _⟩ => show win6_1.index t (1 : Fin 2) * 1024 + 1 * s.val = s.val; rw [e3]; omega

/-- What point t writes back is block t of the product of the two operands as the launch finds them. -/
theorem written_back (c : Dev nD) (t : Fin cfg6.N) :
    (dat6 V c).flushed 2 t = ((cfg6.win 2).blk t).view.read (Elt Ideal) (product (M := 3072) (left V c) (right V c)) := by
  show (cfg6.win 2).cut (grid6.coords t) ((dat6 V c).after 2 t) = _
  rw [after6_2]
  unfold out6_2
  rw [View.canon_unit_zero zero_offsets]
  simp only [View.ld_unit_zero (S := S256x1024) zero_offsets, View.ld_unit_zero (S := S1024x1024) zero_offsets]
  obtain ⟨-, -, -, -, e4, e5⟩ := block_indices t
  have ht : t.val < 12 := lt_of_lt_of_eq t.isLt N_6
  refine funext fun (j : S256x1024.Idx) => ?_
  obtain ⟨r, s, rfl⟩ : ∃ (r : Fin 256) (s : Fin 1024), j = ix2 r s := ⟨j 0, j 1, eq_ix2 j⟩
  refine (payload_entry (iblk6 V c 0 t) (iblk6 V c 1 t) r s).trans ?_
  rw [View.read_apply]
  refine Eq.trans ?_ (product_entry (left V c) (right V c) _ (⟨256 * t.val + r.val, by omega⟩ : Fin 3072) s ?_ ?_).symm
  · refine Finset.sum_congr rfl fun k _ => ?_
    rw [left_block V c t r k (ix2 (⟨256 * t.val + r.val, by omega⟩ : Fin 3072) k) rfl rfl, right_block V c t k s]
  · show win6_2.index t (0 : Fin 2) * 256 + 1 * r.val = 256 * t.val + r.val
    rw [e4]; omega
  · show win6_2.index t (1 : Fin 2) * 1024 + 1 * s.val = s.val
    rw [e5]; omega

/-- An entry of the result array lies in point t's block iff each coordinate lies in the block's range on its axis. -/
theorem block_membership (t : Fin cfg6.N) (i : S3072x1024.Idx) :
    i ∈ ((cfg6.win 2).blk t).view.set ↔ ∀ a : Fin 2, win6_2.index t a * S256x1024.size a ≤ (i a).val ∧ (i a).val < win6_2.index t a * S256x1024.size a + S256x1024.size a := by
  show i ∈ ((View.whole main_v14).slice (win6_2.rect t)).set ↔ _
  rw [View.set_slice_whole, Rect.mem_set_unit]
  exact Iff.rfl

/-- After the launch the result array is the product of the two operands as the launch found them. -/
theorem result_array (c : Dev nD) : (dat6 V c).arrAt 2 cfg6.N = product (M := 3072) (left V c) (right V c) :=
  (dat6 V c).arrAt_eq_of_cover 2 _ (fun t _ => written_back V c t) fun i => by
    have hi0 : (i 0).val < 3072 := (i 0).isLt
    have hi1 : (i 1).val < 1024 := (i 1).isLt
    have hN : cfg6.N = 12 := N_6
    have hq : (i 0).val / 256 < cfg6.N := by rw [hN]; omega
    obtain ⟨-, -, -, -, e4, e5⟩ := block_indices ⟨(i 0).val / 256, hq⟩
    refine ⟨⟨(i 0).val / 256, hq⟩, flush6_2 _, ?_⟩
    rw [block_membership]
    intro a
    match a with
    | ⟨0, _⟩ =>
      show win6_2.index ⟨(i 0).val / 256, hq⟩ (0 : Fin 2) * 256 ≤ (i 0).val ∧ (i 0).val < win6_2.index ⟨(i 0).val / 256, hq⟩ (0 : Fin 2) * 256 + 256
      rw [e4]; show (i 0).val / 256 * 256 ≤ (i 0).val ∧ (i 0).val < (i 0).val / 256 * 256 + 256; omega
    | ⟨1, _⟩ =>
      show win6_2.index ⟨(i 0).val / 256, hq⟩ (1 : Fin 2) * 1024 ≤ (i 1).val ∧ (i 1).val < win6_2.index ⟨(i 0).val / 256, hq⟩ (1 : Fin 2) * 1024 + 1024
      rw [e5]; omega

end Cert.KernelIdeal.Expert6

end
-- ==== Proof.Expert7.lean ====
/-
  Expert 7: what its launch leaves in its result array.

  The launch walks 10 grid points. Point t fetches rows 256 t … 256 t + 255 of the left operand (a 2560 x 1024 array) and the
  whole right operand, multiplies the slab by the right operand into a zero accumulator, and writes the 256 x 1024 result
  back as rows 256 t … 256 t + 255 of the result array. So what point t writes back is the block at t of ONE function of the
  two arrays as the launch finds them, their product (`written_back`); the 10 blocks tile the result array (row r lies in
  the block of point r / 256), so after the launch the array is that product (`result_array`).
-/
import proofs.«135188_j32349693674007_2_alg».proof.Proof.Gen.KernelIdeal.Frame
import proofs.«135188_j32349693674007_2_alg».proof.Proof.RowsByColumns
import Idealize.ShloMosaic.Lib.Pipeline.Value

set_option maxRecDepth 16384

noncomputable section

namespace Cert.KernelIdeal.Expert7

open Cert.KernelIdeal Cert.KernelIdeal.Gen Cert.RowsByColumns
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The left operand as the launch finds it. -/
abbrev left (c : Dev nD) : FVec Ideal S2560x1024 .f32 := V c main_arg14
/-- The right operand as the launch finds it (already rounded by the host). -/
abbrev right (c : Dev nD) : FVec Ideal S1024x1024 .bf16 := V c main_v7

theorem zero_offsets : (![0, 0] : Fin 2 → Nat) = fun _ => 0 := funext fun a => by fin_cases a <;> rfl

/-- The block each window holds at point t: the left operand's and the result's block t along the rows, the right
    operand's only block. -/
theorem block_indices : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What the body stores, at entry (r, s): the slab's row r against the right operand's column s. -/
theorem payload_entry (x : FVec Ideal S256x1024 .f32) (y : FVec Ideal S1024x1024 .bf16) (r : Fin 256) (s : Fin 1024) :
    k7_pay1 (F := Ideal) x y (ix2 r s) = ∑ k : Fin 1024, x (ix2 r k) * y (ix2 k s) :=
  slab_entry Facts₀.dot_S256x1024_S1024x1024_S256x1024_1_0_0_1_n_n_wf x y _ _ r s

/-- Entry (r, k) of the left operand's block at point t is entry (256 t + r, k) of the left operand. -/
theorem left_block (c : Dev nD) (t : Fin cfg7.N) (r : Fin 256) (k : Fin 1024) (i : S2560x1024.Idx)
    (h0 : (i 0).val = 256 * t.val + r.val) (h1 : (i 1).val = k.val) :
    (iblk7 V c 0 t : FVec Ideal S256x1024 .f32) (ix2 r k) = left V c i := by
  obtain ⟨e0, e1, -⟩ := block_indices t
  unfold iblk7
  rw [View.read_apply]
  show V c main_arg14 _ = V c main_arg14 _
  refine congrArg _ (funext fun a => Fin.ext ?_)
  match a with
  | ⟨0, _⟩ => show win7_0.index t (0 : Fin 2) * 256 + 1 * r.val = (i 0).val; rw [e0, h0]; omega
  | ⟨1, _⟩ => show win7_0.index t (1 : Fin 2) * 1024 + 1 * k.val = (i 1).val; rw [e1, h1]; omega

/-- The right operand's block at any point is the whole right operand. -/
theorem right_block (c : Dev nD) (t : Fin cfg7.N) (k s : Fin 1024) :
    (iblk7 V c 1 t : FVec Ideal S1024x1024 .bf16) (ix2 k s) = right V c (ix2 k s) := by
  obtain ⟨-, -, e2, e3, -⟩ := block_indices t
  unfold iblk7
  rw [View.read_apply]
  show V c main_v7 _ = V c main_v7 _
  refine congrArg _ (funext fun a => Fin.ext ?_)
  match a with
  | ⟨0, _⟩ => show win7_1.index t (0 : Fin 2) * 1024 + 1 * k.val = k.val; rw [e2]; omega
  | ⟨1, _⟩ => show win7_1.index t (1 : Fin 2) * 1024 + 1 * s.val = s.val; rw [e3]; omega

/-- What point t writes back is block t of the product of the two operands as the launch finds them. -/
theorem written_back (c : Dev nD) (t : Fin cfg7.N) :
    (dat7 V c).flushed 2 t = ((cfg7.win 2).blk t).view.read (Elt Ideal) (product (M := 2560) (left V c) (right V c)) := by
  show (cfg7.win 2).cut (grid7.coords t) ((dat7 V c).after 2 t) = _
  rw [after7_2]
  unfold out7_2
  rw [View.canon_unit_zero zero_offsets]
  simp only [View.ld_unit_zero (S := S256x1024) zero_offsets, View.ld_unit_zero (S := S1024x1024) zero_offsets]
  obtain ⟨-, -, -, -, e4, e5⟩ := block_indices t
  have ht : t.val < 10 := lt_of_lt_of_eq t.isLt N_7
  refine funext fun (j : S256x1024.Idx) => ?_
  obtain ⟨r, s, rfl⟩ : ∃ (r : Fin 256) (s : Fin 1024), j = ix2 r s := ⟨j 0, j 1, eq_ix2 j⟩
  refine (payload_entry (iblk7 V c 0 t) (iblk7 V c 1 t) r s).trans ?_
  rw [View.read_apply]
  refine Eq.trans ?_ (product_entry (left V c) (right V c) _ (⟨256 * t.val + r.val, by omega⟩ : Fin 2560) s ?_ ?_).symm
  · refine Finset.sum_congr rfl fun k _ => ?_
    rw [left_block V c t r k (ix2 (⟨256 * t.val + r.val, by omega⟩ : Fin 2560) k) rfl rfl, right_block V c t k s]
  · show win7_2.index t (0 : Fin 2) * 256 + 1 * r.val = 256 * t.val + r.val
    rw [e4]; omega
  · show win7_2.index t (1 : Fin 2) * 1024 + 1 * s.val = s.val
    rw [e5]; omega

/-- An entry of the result array lies in point t's block iff each coordinate lies in the block's range on its axis. -/
theorem block_membership (t : Fin cfg7.N) (i : S2560x1024.Idx) :
    i ∈ ((cfg7.win 2).blk t).view.set ↔ ∀ a : Fin 2, win7_2.index t a * S256x1024.size a ≤ (i a).val ∧ (i a).val < win7_2.index t a * S256x1024.size a + S256x1024.size a := by
  show i ∈ ((View.whole main_v15).slice (win7_2.rect t)).set ↔ _
  rw [View.set_slice_whole, Rect.mem_set_unit]
  exact Iff.rfl

/-- After the launch the result array is the product of the two operands as the launch found them. -/
theorem result_array (c : Dev nD) : (dat7 V c).arrAt 2 cfg7.N = product (M := 2560) (left V c) (right V c) :=
  (dat7 V c).arrAt_eq_of_cover 2 _ (fun t _ => written_back V c t) fun i => by
    have hi0 : (i 0).val < 2560 := (i 0).isLt
    have hi1 : (i 1).val < 1024 := (i 1).isLt
    have hN : cfg7.N = 10 := N_7
    have hq : (i 0).val / 256 < cfg7.N := by rw [hN]; omega
    obtain ⟨-, -, -, -, e4, e5⟩ := block_indices ⟨(i 0).val / 256, hq⟩
    refine ⟨⟨(i 0).val / 256, hq⟩, flush7_2 _, ?_⟩
    rw [block_membership]
    intro a
    match a with
    | ⟨0, _⟩ =>
      show win7_2.index ⟨(i 0).val / 256, hq⟩ (0 : Fin 2) * 256 ≤ (i 0).val ∧ (i 0).val < win7_2.index ⟨(i 0).val / 256, hq⟩ (0 : Fin 2) * 256 + 256
      rw [e4]; show (i 0).val / 256 * 256 ≤ (i 0).val ∧ (i 0).val < (i 0).val / 256 * 256 + 256; omega
    | ⟨1, _⟩ =>
      show win7_2.index ⟨(i 0).val / 256, hq⟩ (1 : Fin 2) * 1024 ≤ (i 1).val ∧ (i 1).val < win7_2.index ⟨(i 0).val / 256, hq⟩ (1 : Fin 2) * 1024 + 1024
      rw [e5]; omega

end Cert.KernelIdeal.Expert7

end
-- ==== Proof.Results.lean ====
/-
  Each result array at the end of the run, as a function of the arguments.

  The memory at the last boundary is the launch memory folded through the host stretch and the eight launches. A launch
  changes only its own result array; its operands and every other buffer pass through. So expert p's result array at
  the end is what its own launch left there, the product of its operands as that launch found them (the module of that
  expert); its left operand at that point is the argument as launched, no earlier segment having written it; and its
  right operand is the host's rounding of the argument, which over the extended reals is the argument itself. Hence the
  array ends at the product of the two arguments.
-/
import proofs.«135188_j32349693674007_2_alg».proof.Proof.Gen.KernelIdeal.Frame
import proofs.«135188_j32349693674007_2_alg».proof.Proof.RowsByColumns
import proofs.«135188_j32349693674007_2_alg».proof.Proof.Expert0
import proofs.«135188_j32349693674007_2_alg».proof.Proof.Expert1
import proofs.«135188_j32349693674007_2_alg».proof.Proof.Expert2
import proofs.«135188_j32349693674007_2_alg».proof.Proof.Expert3
import proofs.«135188_j32349693674007_2_alg».proof.Proof.Expert4
import proofs.«135188_j32349693674007_2_alg».proof.Proof.Expert5
import proofs.«135188_j32349693674007_2_alg».proof.Proof.Expert6
import proofs.«135188_j32349693674007_2_alg».proof.Proof.Expert7
import Idealize.ShloMosaic.Lib.StableHlo.Run

set_option maxRecDepth 16384

noncomputable section

namespace Cert.KernelIdeal.Results

open Cert.KernelIdeal Cert.KernelIdeal.Gen Cert.RowsByColumns
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Expert 0 -/

/-- No host operation writes the left operand: at the first launch's entry it is as launched. -/
theorem host_left0 (c : Dev nD) : W1 m ρ c (Proc.devRef .tc main_arg0) = m ((c : Thread nD τ).loc main_arg0) := by
  dsimp only [W1, W0, hostOps0]; after_results

/-- The host stretch leaves the rounded right operand in its own buffer. -/
theorem host_right0 (c : Dev nD) :
    (W1 m ρ c (Proc.devRef .tc main_v0) : FVec Ideal S1024x1024 .bf16) = truncf (F := Ideal) .bf16 (m ((c : Thread nD τ).loc main_arg1) : FVec Ideal S1024x1024 .f32) bitsLt_bf16_f32 := by
  dsimp only [W1, W0, hostOps0]; after_results; try rfl

/-- The launches before expert 0's do not touch its left operand. -/
theorem entry_left0 (c : Dev nD) : W1 m ρ c (Proc.devRef .tc main_arg0) = m ((c : Thread nD τ).loc main_arg0) :=
  calc W1 m ρ c (Proc.devRef .tc main_arg0)
    _ = m ((c : Thread nD τ).loc main_arg0) := host_left0 m ρ c

/-- Nor its rounded right operand. -/
theorem entry_right0 (c : Dev nD) :
    (W1 m ρ c (Proc.devRef .tc main_v0) : FVec Ideal S1024x1024 .bf16) = truncf (F := Ideal) .bf16 (m ((c : Thread nD τ).loc main_arg1) : FVec Ideal S1024x1024 .f32) bitsLt_bf16_f32 :=
  calc (W1 m ρ c (Proc.devRef .tc main_v0) : FVec Ideal S1024x1024 .bf16)
    _ = truncf (F := Ideal) .bf16 (m ((c : Thread nD τ).loc main_arg1) : FVec Ideal S1024x1024 .f32) bitsLt_bf16_f32 := host_right0 m ρ c

/-- Expert 0's result array at the end: the product of its two arguments as launched. -/
theorem result0 (c : Dev nD) :
    (W9 m ρ c (Proc.devRef .tc main_v8) : FVec Ideal S512x1024 .f32)
      = product (M := 512) (φ₁ := .f32) (φ₂ := .f32) (m ((c : Thread nD τ).loc main_arg0) : FVec Ideal S512x1024 .f32) (m ((c : Thread nD τ).loc main_arg1) : FVec Ideal S1024x1024 .f32) :=
  calc (W9 m ρ c (Proc.devRef .tc main_v8) : FVec Ideal S512x1024 .f32)
    _ = W8 m ρ c (Proc.devRef .tc main_v8) := W9_of_ne m ρ c main_v8 (by decide)
    _ = W7 m ρ c (Proc.devRef .tc main_v8) := W8_of_ne m ρ c main_v8 (by decide)
    _ = W6 m ρ c (Proc.devRef .tc main_v8) := W7_of_ne m ρ c main_v8 (by decide)
    _ = W5 m ρ c (Proc.devRef .tc main_v8) := W6_of_ne m ρ c main_v8 (by decide)
    _ = W4 m ρ c (Proc.devRef .tc main_v8) := W5_of_ne m ρ c main_v8 (by decide)
    _ = W3 m ρ c (Proc.devRef .tc main_v8) := W4_of_ne m ρ c main_v8 (by decide)
    _ = W2 m ρ c (Proc.devRef .tc main_v8) := W3_of_ne m ρ c main_v8 (by decide)
    _ = (dat0 (V1 m ρ) c).arrAt 2 cfg0.N := W2_arr m ρ c 2
    _ = product (M := 512) (Expert0.left (V1 m ρ) c) (Expert0.right (V1 m ρ) c) := Expert0.result_array (V1 m ρ) c
    _ = product (M := 512) (φ₁ := .f32) (φ₂ := .bf16) (m ((c : Thread nD τ).loc main_arg0) : FVec Ideal S512x1024 .f32) (truncf (F := Ideal) .bf16 (m ((c : Thread nD τ).loc main_arg1) : FVec Ideal S1024x1024 .f32) bitsLt_bf16_f32) := by
        show product (M := 512) (φ₁ := .f32) (φ₂ := .bf16) (W1 m ρ c (Proc.devRef .tc main_arg0) : FVec Ideal S512x1024 .f32) (W1 m ρ c (Proc.devRef .tc main_v0) : FVec Ideal S1024x1024 .bf16) = _
        rw [entry_left0 m ρ c, entry_right0 m ρ c]
    _ = product (M := 512) (φ₁ := .f32) (φ₂ := .f32) (m ((c : Thread nD τ).loc main_arg0) : FVec Ideal S512x1024 .f32) (m ((c : Thread nD τ).loc main_arg1) : FVec Ideal S1024x1024 .f32) :=
        product_round_right _ _ _

/-! ## Expert 1 -/

/-- No host operation writes the left operand: at the first launch's entry it is as launched. -/
theorem host_left1 (c : Dev nD) : W1 m ρ c (Proc.devRef .tc main_arg2) = m ((c : Thread nD τ).loc main_arg2) := by
  dsimp only [W1, W0, hostOps0]; after_results

/-- The host stretch leaves the rounded right operand in its own buffer. -/
theorem host_right1 (c : Dev nD) :
    (W1 m ρ c (Proc.devRef .tc main_v1) : FVec Ideal S1024x1024 .bf16) = truncf (F := Ideal) .bf16 (m ((c : Thread nD τ).loc main_arg3) : FVec Ideal S1024x1024 .f32) bitsLt_bf16_f32 := by
  dsimp only [W1, W0, hostOps0]; after_results; try rfl

/-- The launches before expert 1's do not touch its left operand. -/
theorem entry_left1 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = m ((c : Thread nD τ).loc main_arg2) := host_left1 m ρ c

/-- Nor its rounded right operand. -/
theorem entry_right1 (c : Dev nD) :
    (W2 m ρ c (Proc.devRef .tc main_v1) : FVec Ideal S1024x1024 .bf16) = truncf (F := Ideal) .bf16 (m ((c : Thread nD τ).loc main_arg3) : FVec Ideal S1024x1024 .f32) bitsLt_bf16_f32 :=
  calc (W2 m ρ c (Proc.devRef .tc main_v1) : FVec Ideal S1024x1024 .bf16)
    _ = W1 m ρ c (Proc.devRef .tc main_v1) := W2_of_ne m ρ c main_v1 (by decide)
    _ = truncf (F := Ideal) .bf16 (m ((c : Thread nD τ).loc main_arg3) : FVec Ideal S1024x1024 .f32) bitsLt_bf16_f32 := host_right1 m ρ c

/-- Expert 1's result array at the end: the product of its two arguments as launched. -/
theorem result1 (c : Dev nD) :
    (W9 m ρ c (Proc.devRef .tc main_v9) : FVec Ideal S1024x1024 .f32)
      = product (M := 1024) (φ₁ := .f32) (φ₂ := .f32) (m ((c : Thread nD τ).loc main_arg2) : FVec Ideal S1024x1024 .f32) (m ((c : Thread nD τ).loc main_arg3) : FVec Ideal S1024x1024 .f32) :=
  calc (W9 m ρ c (Proc.devRef .tc main_v9) : FVec Ideal S1024x1024 .f32)
    _ = W8 m ρ c (Proc.devRef .tc main_v9) := W9_of_ne m ρ c main_v9 (by decide)
    _ = W7 m ρ c (Proc.devRef .tc main_v9) := W8_of_ne m ρ c main_v9 (by decide)
    _ = W6 m ρ c (Proc.devRef .tc main_v9) := W7_of_ne m ρ c main_v9 (by decide)
    _ = W5 m ρ c (Proc.devRef .tc main_v9) := W6_of_ne m ρ c main_v9 (by decide)
    _ = W4 m ρ c (Proc.devRef .tc main_v9) := W5_of_ne m ρ c main_v9 (by decide)
    _ = W3 m ρ c (Proc.devRef .tc main_v9) := W4_of_ne m ρ c main_v9 (by decide)
    _ = (dat1 (V2 m ρ) c).arrAt 2 cfg1.N := W3_arr m ρ c 2
    _ = product (M := 1024) (Expert1.left (V2 m ρ) c) (Expert1.right (V2 m ρ) c) := Expert1.result_array (V2 m ρ) c
    _ = product (M := 1024) (φ₁ := .f32) (φ₂ := .bf16) (m ((c : Thread nD τ).loc main_arg2) : FVec Ideal S1024x1024 .f32) (truncf (F := Ideal) .bf16 (m ((c : Thread nD τ).loc main_arg3) : FVec Ideal S1024x1024 .f32) bitsLt_bf16_f32) := by
        show product (M := 1024) (φ₁ := .f32) (φ₂ := .bf16) (W2 m ρ c (Proc.devRef .tc main_arg2) : FVec Ideal S1024x1024 .f32) (W2 m ρ c (Proc.devRef .tc main_v1) : FVec Ideal S1024x1024 .bf16) = _
        rw [entry_left1 m ρ c, entry_right1 m ρ c]
    _ = product (M := 1024) (φ₁ := .f32) (φ₂ := .f32) (m ((c : Thread nD τ).loc main_arg2) : FVec Ideal S1024x1024 .f32) (m ((c : Thread nD τ).loc main_arg3) : FVec Ideal S1024x1024 .f32) :=
        product_round_right _ _ _

/-! ## Expert 2 -/

/-- No host operation writes the left operand: at the first launch's entry it is as launched. -/
theorem host_left2 (c : Dev nD) : W1 m ρ c (Proc.devRef .tc main_arg4) = m ((c : Thread nD τ).loc main_arg4) := by
  dsimp only [W1, W0, hostOps0]; after_results

/-- The host stretch leaves the rounded right operand in its own buffer. -/
theorem host_right2 (c : Dev nD) :
    (W1 m ρ c (Proc.devRef .tc main_v2) : FVec Ideal S1024x1024 .bf16) = truncf (F := Ideal) .bf16 (m ((c : Thread nD τ).loc main_arg5) : FVec Ideal S1024x1024 .f32) bitsLt_bf16_f32 := by
  dsimp only [W1, W0, hostOps0]; after_results; try rfl

/-- The launches before expert 2's do not touch its left operand. -/
theorem entry_left2 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = m ((c : Thread nD τ).loc main_arg4) := host_left2 m ρ c

/-- Nor its rounded right operand. -/
theorem entry_right2 (c : Dev nD) :
    (W3 m ρ c (Proc.devRef .tc main_v2) : FVec Ideal S1024x1024 .bf16) = truncf (F := Ideal) .bf16 (m ((c : Thread nD τ).loc main_arg5) : FVec Ideal S1024x1024 .f32) bitsLt_bf16_f32 :=
  calc (W3 m ρ c (Proc.devRef .tc main_v2) : FVec Ideal S1024x1024 .bf16)
    _ = W2 m ρ c (Proc.devRef .tc main_v2) := W3_of_ne m ρ c main_v2 (by decide)
    _ = W1 m ρ c (Proc.devRef .tc main_v2) := W2_of_ne m ρ c main_v2 (by decide)
    _ = truncf (F := Ideal) .bf16 (m ((c : Thread nD τ).loc main_arg5) : FVec Ideal S1024x1024 .f32) bitsLt_bf16_f32 := host_right2 m ρ c

/-- Expert 2's result array at the end: the product of its two arguments as launched. -/
theorem result2 (c : Dev nD) :
    (W9 m ρ c (Proc.devRef .tc main_v10) : FVec Ideal S2048x1024 .f32)
      = product (M := 2048) (φ₁ := .f32) (φ₂ := .f32) (m ((c : Thread nD τ).loc main_arg4) : FVec Ideal S2048x1024 .f32) (m ((c : Thread nD τ).loc main_arg5) : FVec Ideal S1024x1024 .f32) :=
  calc (W9 m ρ c (Proc.devRef .tc main_v10) : FVec Ideal S2048x1024 .f32)
    _ = W8 m ρ c (Proc.devRef .tc main_v10) := W9_of_ne m ρ c main_v10 (by decide)
    _ = W7 m ρ c (Proc.devRef .tc main_v10) := W8_of_ne m ρ c main_v10 (by decide)
    _ = W6 m ρ c (Proc.devRef .tc main_v10) := W7_of_ne m ρ c main_v10 (by decide)
    _ = W5 m ρ c (Proc.devRef .tc main_v10) := W6_of_ne m ρ c main_v10 (by decide)
    _ = W4 m ρ c (Proc.devRef .tc main_v10) := W5_of_ne m ρ c main_v10 (by decide)
    _ = (dat2 (V3 m ρ) c).arrAt 2 cfg2.N := W4_arr m ρ c 2
    _ = product (M := 2048) (Expert2.left (V3 m ρ) c) (Expert2.right (V3 m ρ) c) := Expert2.result_array (V3 m ρ) c
    _ = product (M := 2048) (φ₁ := .f32) (φ₂ := .bf16) (m ((c : Thread nD τ).loc main_arg4) : FVec Ideal S2048x1024 .f32) (truncf (F := Ideal) .bf16 (m ((c : Thread nD τ).loc main_arg5) : FVec Ideal S1024x1024 .f32) bitsLt_bf16_f32) := by
        show product (M := 2048) (φ₁ := .f32) (φ₂ := .bf16) (W3 m ρ c (Proc.devRef .tc main_arg4) : FVec Ideal S2048x1024 .f32) (W3 m ρ c (Proc.devRef .tc main_v2) : FVec Ideal S1024x1024 .bf16) = _
        rw [entry_left2 m ρ c, entry_right2 m ρ c]
    _ = product (M := 2048) (φ₁ := .f32) (φ₂ := .f32) (m ((c : Thread nD τ).loc main_arg4) : FVec Ideal S2048x1024 .f32) (m ((c : Thread nD τ).loc main_arg5) : FVec Ideal S1024x1024 .f32) :=
        product_round_right _ _ _

/-! ## Expert 3 -/

/-- No host operation writes the left operand: at the first launch's entry it is as launched. -/
theorem host_left3 (c : Dev nD) : W1 m ρ c (Proc.devRef .tc main_arg6) = m ((c : Thread nD τ).loc main_arg6) := by
  dsimp only [W1, W0, hostOps0]; after_results

/-- The host stretch leaves the rounded right operand in its own buffer. -/
theorem host_right3 (c : Dev nD) :
    (W1 m ρ c (Proc.devRef .tc main_v3) : FVec Ideal S1024x1024 .bf16) = truncf (F := Ideal) .bf16 (m ((c : Thread nD τ).loc main_arg7) : FVec Ideal S1024x1024 .f32) bitsLt_bf16_f32 := by
  dsimp only [W1, W0, hostOps0]; after_results; try rfl

/-- The launches before expert 3's do not touch its left operand. -/
theorem entry_left3 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = m ((c : Thread nD τ).loc main_arg6) := host_left3 m ρ c

/-- Nor its rounded right operand. -/
theorem entry_right3 (c : Dev nD) :
    (W4 m ρ c (Proc.devRef .tc main_v3) : FVec Ideal S1024x1024 .bf16) = truncf (F := Ideal) .bf16 (m ((c : Thread nD τ).loc main_arg7) : FVec Ideal S1024x1024 .f32) bitsLt_bf16_f32 :=
  calc (W4 m ρ c (Proc.devRef .tc main_v3) : FVec Ideal S1024x1024 .bf16)
    _ = W3 m ρ c (Proc.devRef .tc main_v3) := W4_of_ne m ρ c main_v3 (by decide)
    _ = W2 m ρ c (Proc.devRef .tc main_v3) := W3_of_ne m ρ c main_v3 (by decide)
    _ = W1 m ρ c (Proc.devRef .tc main_v3) := W2_of_ne m ρ c main_v3 (by decide)
    _ = truncf (F := Ideal) .bf16 (m ((c : Thread nD τ).loc main_arg7) : FVec Ideal S1024x1024 .f32) bitsLt_bf16_f32 := host_right3 m ρ c

/-- Expert 3's result array at the end: the product of its two arguments as launched. -/
theorem result3 (c : Dev nD) :
    (W9 m ρ c (Proc.devRef .tc main_v11) : FVec Ideal S4096x1024 .f32)
      = product (M := 4096) (φ₁ := .f32) (φ₂ := .f32) (m ((c : Thread nD τ).loc main_arg6) : FVec Ideal S4096x1024 .f32) (m ((c : Thread nD τ).loc main_arg7) : FVec Ideal S1024x1024 .f32) :=
  calc (W9 m ρ c (Proc.devRef .tc main_v11) : FVec Ideal S4096x1024 .f32)
    _ = W8 m ρ c (Proc.devRef .tc main_v11) := W9_of_ne m ρ c main_v11 (by decide)
    _ = W7 m ρ c (Proc.devRef .tc main_v11) := W8_of_ne m ρ c main_v11 (by decide)
    _ = W6 m ρ c (Proc.devRef .tc main_v11) := W7_of_ne m ρ c main_v11 (by decide)
    _ = W5 m ρ c (Proc.devRef .tc main_v11) := W6_of_ne m ρ c main_v11 (by decide)
    _ = (dat3 (V4 m ρ) c).arrAt 2 cfg3.N := W5_arr m ρ c 2
    _ = product (M := 4096) (Expert3.left (V4 m ρ) c) (Expert3.right (V4 m ρ) c) := Expert3.result_array (V4 m ρ) c
    _ = product (M := 4096) (φ₁ := .f32) (φ₂ := .bf16) (m ((c : Thread nD τ).loc main_arg6) : FVec Ideal S4096x1024 .f32) (truncf (F := Ideal) .bf16 (m ((c : Thread nD τ).loc main_arg7) : FVec Ideal S1024x1024 .f32) bitsLt_bf16_f32) := by
        show product (M := 4096) (φ₁ := .f32) (φ₂ := .bf16) (W4 m ρ c (Proc.devRef .tc main_arg6) : FVec Ideal S4096x1024 .f32) (W4 m ρ c (Proc.devRef .tc main_v3) : FVec Ideal S1024x1024 .bf16) = _
        rw [entry_left3 m ρ c, entry_right3 m ρ c]
    _ = product (M := 4096) (φ₁ := .f32) (φ₂ := .f32) (m ((c : Thread nD τ).loc main_arg6) : FVec Ideal S4096x1024 .f32) (m ((c : Thread nD τ).loc main_arg7) : FVec Ideal S1024x1024 .f32) :=
        product_round_right _ _ _

/-! ## Expert 4 -/

/-- No host operation writes the left operand: at the first launch's entry it is as launched. -/
theorem host_left4 (c : Dev nD) : W1 m ρ c (Proc.devRef .tc main_arg8) = m ((c : Thread nD τ).loc main_arg8) := by
  dsimp only [W1, W0, hostOps0]; after_results

/-- The host stretch leaves the rounded right operand in its own buffer. -/
theorem host_right4 (c : Dev nD) :
    (W1 m ρ c (Proc.devRef .tc main_v4) : FVec Ideal S1024x1024 .bf16) = truncf (F := Ideal) .bf16 (m ((c : Thread nD τ).loc main_arg9) : FVec Ideal S1024x1024 .f32) bitsLt_bf16_f32 := by
  dsimp only [W1, W0, hostOps0]; after_results; try rfl

/-- The launches before expert 4's do not touch its left operand. -/
theorem entry_left4 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = m ((c : Thread nD τ).loc main_arg8) := host_left4 m ρ c

/-- Nor its rounded right operand. -/
theorem entry_right4 (c : Dev nD) :
    (W5 m ρ c (Proc.devRef .tc main_v4) : FVec Ideal S1024x1024 .bf16) = truncf (F := Ideal) .bf16 (m ((c : Thread nD τ).loc main_arg9) : FVec Ideal S1024x1024 .f32) bitsLt_bf16_f32 :=
  calc (W5 m ρ c (Proc.devRef .tc main_v4) : FVec Ideal S1024x1024 .bf16)
    _ = W4 m ρ c (Proc.devRef .tc main_v4) := W5_of_ne m ρ c main_v4 (by decide)
    _ = W3 m ρ c (Proc.devRef .tc main_v4) := W4_of_ne m ρ c main_v4 (by decide)
    _ = W2 m ρ c (Proc.devRef .tc main_v4) := W3_of_ne m ρ c main_v4 (by decide)
    _ = W1 m ρ c (Proc.devRef .tc main_v4) := W2_of_ne m ρ c main_v4 (by decide)
    _ = truncf (F := Ideal) .bf16 (m ((c : Thread nD τ).loc main_arg9) : FVec Ideal S1024x1024 .f32) bitsLt_bf16_f32 := host_right4 m ρ c

/-- Expert 4's result array at the end: the product of its two arguments as launched. -/
theorem result4 (c : Dev nD) :
    (W9 m ρ c (Proc.devRef .tc main_v12) : FVec Ideal S1536x1024 .f32)
      = product (M := 1536) (φ₁ := .f32) (φ₂ := .f32) (m ((c : Thread nD τ).loc main_arg8) : FVec Ideal S1536x1024 .f32) (m ((c : Thread nD τ).loc main_arg9) : FVec Ideal S1024x1024 .f32) :=
  calc (W9 m ρ c (Proc.devRef .tc main_v12) : FVec Ideal S1536x1024 .f32)
    _ = W8 m ρ c (Proc.devRef .tc main_v12) := W9_of_ne m ρ c main_v12 (by decide)
    _ = W7 m ρ c (Proc.devRef .tc main_v12) := W8_of_ne m ρ c main_v12 (by decide)
    _ = W6 m ρ c (Proc.devRef .tc main_v12) := W7_of_ne m ρ c main_v12 (by decide)
    _ = (dat4 (V5 m ρ) c).arrAt 2 cfg4.N := W6_arr m ρ c 2
    _ = product (M := 1536) (Expert4.left (V5 m ρ) c) (Expert4.right (V5 m ρ) c) := Expert4.result_array (V5 m ρ) c
    _ = product (M := 1536) (φ₁ := .f32) (φ₂ := .bf16) (m ((c : Thread nD τ).loc main_arg8) : FVec Ideal S1536x1024 .f32) (truncf (F := Ideal) .bf16 (m ((c : Thread nD τ).loc main_arg9) : FVec Ideal S1024x1024 .f32) bitsLt_bf16_f32) := by
        show product (M := 1536) (φ₁ := .f32) (φ₂ := .bf16) (W5 m ρ c (Proc.devRef .tc main_arg8) : FVec Ideal S1536x1024 .f32) (W5 m ρ c (Proc.devRef .tc main_v4) : FVec Ideal S1024x1024 .bf16) = _
        rw [entry_left4 m ρ c, entry_right4 m ρ c]
    _ = product (M := 1536) (φ₁ := .f32) (φ₂ := .f32) (m ((c : Thread nD τ).loc main_arg8) : FVec Ideal S1536x1024 .f32) (m ((c : Thread nD τ).loc main_arg9) : FVec Ideal S1024x1024 .f32) :=
        product_round_right _ _ _

/-! ## Expert 5 -/

/-- No host operation writes the left operand: at the first launch's entry it is as launched. -/
theorem host_left5 (c : Dev nD) : W1 m ρ c (Proc.devRef .tc main_arg10) = m ((c : Thread nD τ).loc main_arg10) := by
  dsimp only [W1, W0, hostOps0]; after_results

/-- The host stretch leaves the rounded right operand in its own buffer. -/
theorem host_right5 (c : Dev nD) :
    (W1 m ρ c (Proc.devRef .tc main_v5) : FVec Ideal S1024x1024 .bf16) = truncf (F := Ideal) .bf16 (m ((c : Thread nD τ).loc main_arg11) : FVec Ideal S1024x1024 .f32) bitsLt_bf16_f32 := by
  dsimp only [W1, W0, hostOps0]; after_results; try rfl

/-- The launches before expert 5's do not touch its left operand. -/
theorem entry_left5 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = m ((c : Thread nD τ).loc main_arg10) := host_left5 m ρ c

/-- Nor its rounded right operand. -/
theorem entry_right5 (c : Dev nD) :
    (W6 m ρ c (Proc.devRef .tc main_v5) : FVec Ideal S1024x1024 .bf16) = truncf (F := Ideal) .bf16 (m ((c : Thread nD τ).loc main_arg11) : FVec Ideal S1024x1024 .f32) bitsLt_bf16_f32 :=
  calc (W6 m ρ c (Proc.devRef .tc main_v5) : FVec Ideal S1024x1024 .bf16)
    _ = W5 m ρ c (Proc.devRef .tc main_v5) := W6_of_ne m ρ c main_v5 (by decide)
    _ = W4 m ρ c (Proc.devRef .tc main_v5) := W5_of_ne m ρ c main_v5 (by decide)
    _ = W3 m ρ c (Proc.devRef .tc main_v5) := W4_of_ne m ρ c main_v5 (by decide)
    _ = W2 m ρ c (Proc.devRef .tc main_v5) := W3_of_ne m ρ c main_v5 (by decide)
    _ = W1 m ρ c (Proc.devRef .tc main_v5) := W2_of_ne m ρ c main_v5 (by decide)
    _ = truncf (F := Ideal) .bf16 (m ((c : Thread nD τ).loc main_arg11) : FVec Ideal S1024x1024 .f32) bitsLt_bf16_f32 := host_right5 m ρ c

/-- Expert 5's result array at the end: the product of its two arguments as launched. -/
theorem result5 (c : Dev nD) :
    (W9 m ρ c (Proc.devRef .tc main_v13) : FVec Ideal S768x1024 .f32)
      = product (M := 768) (φ₁ := .f32) (φ₂ := .f32) (m ((c : Thread nD τ).loc main_arg10) : FVec Ideal S768x1024 .f32) (m ((c : Thread nD τ).loc main_arg11) : FVec Ideal S1024x1024 .f32) :=
  calc (W9 m ρ c (Proc.devRef .tc main_v13) : FVec Ideal S768x1024 .f32)
    _ = W8 m ρ c (Proc.devRef .tc main_v13) := W9_of_ne m ρ c main_v13 (by decide)
    _ = W7 m ρ c (Proc.devRef .tc main_v13) := W8_of_ne m ρ c main_v13 (by decide)
    _ = (dat5 (V6 m ρ) c).arrAt 2 cfg5.N := W7_arr m ρ c 2
    _ = product (M := 768) (Expert5.left (V6 m ρ) c) (Expert5.right (V6 m ρ) c) := Expert5.result_array (V6 m ρ) c
    _ = product (M := 768) (φ₁ := .f32) (φ₂ := .bf16) (m ((c : Thread nD τ).loc main_arg10) : FVec Ideal S768x1024 .f32) (truncf (F := Ideal) .bf16 (m ((c : Thread nD τ).loc main_arg11) : FVec Ideal S1024x1024 .f32) bitsLt_bf16_f32) := by
        show product (M := 768) (φ₁ := .f32) (φ₂ := .bf16) (W6 m ρ c (Proc.devRef .tc main_arg10) : FVec Ideal S768x1024 .f32) (W6 m ρ c (Proc.devRef .tc main_v5) : FVec Ideal S1024x1024 .bf16) = _
        rw [entry_left5 m ρ c, entry_right5 m ρ c]
    _ = product (M := 768) (φ₁ := .f32) (φ₂ := .f32) (m ((c : Thread nD τ).loc main_arg10) : FVec Ideal S768x1024 .f32) (m ((c : Thread nD τ).loc main_arg11) : FVec Ideal S1024x1024 .f32) :=
        product_round_right _ _ _

/-! ## Expert 6 -/

/-- No host operation writes the left operand: at the first launch's entry it is as launched. -/
theorem host_left6 (c : Dev nD) : W1 m ρ c (Proc.devRef .tc main_arg12) = m ((c : Thread nD τ).loc main_arg12) := by
  dsimp only [W1, W0, hostOps0]; after_results

/-- The host stretch leaves the rounded right operand in its own buffer. -/
theorem host_right6 (c : Dev nD) :
    (W1 m ρ c (Proc.devRef .tc main_v6) : FVec Ideal S1024x1024 .bf16) = truncf (F := Ideal) .bf16 (m ((c : Thread nD τ).loc main_arg13) : FVec Ideal S1024x1024 .f32) bitsLt_bf16_f32 := by
  dsimp only [W1, W0, hostOps0]; after_results; try rfl

/-- The launches before expert 6's do not touch its left operand. -/
theorem entry_left6 (c : Dev nD) : W7 m ρ c (Proc.devRef .tc main_arg12) = m ((c : Thread nD τ).loc main_arg12) :=
  calc W7 m ρ c (Proc.devRef .tc main_arg12)
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = m ((c : Thread nD τ).loc main_arg12) := host_left6 m ρ c

/-- Nor its rounded right operand. -/
theorem entry_right6 (c : Dev nD) :
    (W7 m ρ c (Proc.devRef .tc main_v6) : FVec Ideal S1024x1024 .bf16) = truncf (F := Ideal) .bf16 (m ((c : Thread nD τ).loc main_arg13) : FVec Ideal S1024x1024 .f32) bitsLt_bf16_f32 :=
  calc (W7 m ρ c (Proc.devRef .tc main_v6) : FVec Ideal S1024x1024 .bf16)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := W5_of_ne m ρ c main_v6 (by decide)
    _ = W3 m ρ c (Proc.devRef .tc main_v6) := W4_of_ne m ρ c main_v6 (by decide)
    _ = W2 m ρ c (Proc.devRef .tc main_v6) := W3_of_ne m ρ c main_v6 (by decide)
    _ = W1 m ρ c (Proc.devRef .tc main_v6) := W2_of_ne m ρ c main_v6 (by decide)
    _ = truncf (F := Ideal) .bf16 (m ((c : Thread nD τ).loc main_arg13) : FVec Ideal S1024x1024 .f32) bitsLt_bf16_f32 := host_right6 m ρ c

/-- Expert 6's result array at the end: the product of its two arguments as launched. -/
theorem result6 (c : Dev nD) :
    (W9 m ρ c (Proc.devRef .tc main_v14) : FVec Ideal S3072x1024 .f32)
      = product (M := 3072) (φ₁ := .f32) (φ₂ := .f32) (m ((c : Thread nD τ).loc main_arg12) : FVec Ideal S3072x1024 .f32) (m ((c : Thread nD τ).loc main_arg13) : FVec Ideal S1024x1024 .f32) :=
  calc (W9 m ρ c (Proc.devRef .tc main_v14) : FVec Ideal S3072x1024 .f32)
    _ = W8 m ρ c (Proc.devRef .tc main_v14) := W9_of_ne m ρ c main_v14 (by decide)
    _ = (dat6 (V7 m ρ) c).arrAt 2 cfg6.N := W8_arr m ρ c 2
    _ = product (M := 3072) (Expert6.left (V7 m ρ) c) (Expert6.right (V7 m ρ) c) := Expert6.result_array (V7 m ρ) c
    _ = product (M := 3072) (φ₁ := .f32) (φ₂ := .bf16) (m ((c : Thread nD τ).loc main_arg12) : FVec Ideal S3072x1024 .f32) (truncf (F := Ideal) .bf16 (m ((c : Thread nD τ).loc main_arg13) : FVec Ideal S1024x1024 .f32) bitsLt_bf16_f32) := by
        show product (M := 3072) (φ₁ := .f32) (φ₂ := .bf16) (W7 m ρ c (Proc.devRef .tc main_arg12) : FVec Ideal S3072x1024 .f32) (W7 m ρ c (Proc.devRef .tc main_v6) : FVec Ideal S1024x1024 .bf16) = _
        rw [entry_left6 m ρ c, entry_right6 m ρ c]
    _ = product (M := 3072) (φ₁ := .f32) (φ₂ := .f32) (m ((c : Thread nD τ).loc main_arg12) : FVec Ideal S3072x1024 .f32) (m ((c : Thread nD τ).loc main_arg13) : FVec Ideal S1024x1024 .f32) :=
        product_round_right _ _ _

/-! ## Expert 7 -/

/-- No host operation writes the left operand: at the first launch's entry it is as launched. -/
theorem host_left7 (c : Dev nD) : W1 m ρ c (Proc.devRef .tc main_arg14) = m ((c : Thread nD τ).loc main_arg14) := by
  dsimp only [W1, W0, hostOps0]; after_results

/-- The host stretch leaves the rounded right operand in its own buffer. -/
theorem host_right7 (c : Dev nD) :
    (W1 m ρ c (Proc.devRef .tc main_v7) : FVec Ideal S1024x1024 .bf16) = truncf (F := Ideal) .bf16 (m ((c : Thread nD τ).loc main_arg15) : FVec Ideal S1024x1024 .f32) bitsLt_bf16_f32 := by
  dsimp only [W1, W0, hostOps0]; after_results; try rfl

/-- The launches before expert 7's do not touch its left operand. -/
theorem entry_left7 (c : Dev nD) : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := W7_of_ne m ρ c main_arg14 (by decide)
    _ = W5 m ρ c (Proc.devRef .tc main_arg14) := W6_of_ne m ρ c main_arg14 (by decide)
    _ = W4 m ρ c (Proc.devRef .tc main_arg14) := W5_of_ne m ρ c main_arg14 (by decide)
    _ = W3 m ρ c (Proc.devRef .tc main_arg14) := W4_of_ne m ρ c main_arg14 (by decide)
    _ = W2 m ρ c (Proc.devRef .tc main_arg14) := W3_of_ne m ρ c main_arg14 (by decide)
    _ = W1 m ρ c (Proc.devRef .tc main_arg14) := W2_of_ne m ρ c main_arg14 (by decide)
    _ = m ((c : Thread nD τ).loc main_arg14) := host_left7 m ρ c

/-- Nor its rounded right operand. -/
theorem entry_right7 (c : Dev nD) :
    (W8 m ρ c (Proc.devRef .tc main_v7) : FVec Ideal S1024x1024 .bf16) = truncf (F := Ideal) .bf16 (m ((c : Thread nD τ).loc main_arg15) : FVec Ideal S1024x1024 .f32) bitsLt_bf16_f32 :=
  calc (W8 m ρ c (Proc.devRef .tc main_v7) : FVec Ideal S1024x1024 .bf16)
    _ = W7 m ρ c (Proc.devRef .tc main_v7) := W8_of_ne m ρ c main_v7 (by decide)
    _ = W6 m ρ c (Proc.devRef .tc main_v7) := W7_of_ne m ρ c main_v7 (by decide)
    _ = W5 m ρ c (Proc.devRef .tc main_v7) := W6_of_ne m ρ c main_v7 (by decide)
    _ = W4 m ρ c (Proc.devRef .tc main_v7) := W5_of_ne m ρ c main_v7 (by decide)
    _ = W3 m ρ c (Proc.devRef .tc main_v7) := W4_of_ne m ρ c main_v7 (by decide)
    _ = W2 m ρ c (Proc.devRef .tc main_v7) := W3_of_ne m ρ c main_v7 (by decide)
    _ = W1 m ρ c (Proc.devRef .tc main_v7) := W2_of_ne m ρ c main_v7 (by decide)
    _ = truncf (F := Ideal) .bf16 (m ((c : Thread nD τ).loc main_arg15) : FVec Ideal S1024x1024 .f32) bitsLt_bf16_f32 := host_right7 m ρ c

/-- Expert 7's result array at the end: the product of its two arguments as launched. -/
theorem result7 (c : Dev nD) :
    (W9 m ρ c (Proc.devRef .tc main_v15) : FVec Ideal S2560x1024 .f32)
      = product (M := 2560) (φ₁ := .f32) (φ₂ := .f32) (m ((c : Thread nD τ).loc main_arg14) : FVec Ideal S2560x1024 .f32) (m ((c : Thread nD τ).loc main_arg15) : FVec Ideal S1024x1024 .f32) :=
  calc (W9 m ρ c (Proc.devRef .tc main_v15) : FVec Ideal S2560x1024 .f32)
    _ = (dat7 (V8 m ρ) c).arrAt 2 cfg7.N := W9_arr m ρ c 2
    _ = product (M := 2560) (Expert7.left (V8 m ρ) c) (Expert7.right (V8 m ρ) c) := Expert7.result_array (V8 m ρ) c
    _ = product (M := 2560) (φ₁ := .f32) (φ₂ := .bf16) (m ((c : Thread nD τ).loc main_arg14) : FVec Ideal S2560x1024 .f32) (truncf (F := Ideal) .bf16 (m ((c : Thread nD τ).loc main_arg15) : FVec Ideal S1024x1024 .f32) bitsLt_bf16_f32) := by
        show product (M := 2560) (φ₁ := .f32) (φ₂ := .bf16) (W8 m ρ c (Proc.devRef .tc main_arg14) : FVec Ideal S2560x1024 .f32) (W8 m ρ c (Proc.devRef .tc main_v7) : FVec Ideal S1024x1024 .bf16) = _
        rw [entry_left7 m ρ c, entry_right7 m ρ c]
    _ = product (M := 2560) (φ₁ := .f32) (φ₂ := .f32) (m ((c : Thread nD τ).loc main_arg14) : FVec Ideal S2560x1024 .f32) (m ((c : Thread nD τ).loc main_arg15) : FVec Ideal S1024x1024 .f32) :=
        product_round_right _ _ _

end Cert.KernelIdeal.Results

end
-- ==== Proof.Outcome.lean ====
/-
  The kernel program's run, read.

  Every weakly fair execution of the eight launches terminates without a fault; at the end result array p holds the
  product of arguments 2p and 2p + 1 over the extended reals, entry (r, s) the sum over k of a(r, k) * b(k, s), and the
  sixteen arguments are as launched. This joins the run to its last boundary with the value of each result array there.
-/
import proofs.«135188_j32349693674007_2_alg».proof.Proof.LastBoundary
import proofs.«135188_j32349693674007_2_alg».proof.Proof.Results

set_option maxRecDepth 16384

noncomputable section

namespace Cert.KernelIdeal.Outcome

open Cert.KernelIdeal Cert.KernelIdeal.Gen Cert.RowsByColumns
open Idealize.ShloMosaic Idealize.ShloMosaic.TcCoe Idealize.SL.Sem

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v8) = product (M := 512) (φ₁ := .f32) (φ₂ := .f32) (m ((c.tc : Thread nD τ).loc main_arg0) : FVec Ideal S512x1024 .f32) (m ((c.tc : Thread nD τ).loc main_arg1) : FVec Ideal S1024x1024 .f32)
      ∧ r.2.mem ((c.tc : Thread nD τ).loc main_v9) = product (M := 1024) (φ₁ := .f32) (φ₂ := .f32) (m ((c.tc : Thread nD τ).loc main_arg2) : FVec Ideal S1024x1024 .f32) (m ((c.tc : Thread nD τ).loc main_arg3) : FVec Ideal S1024x1024 .f32)
      ∧ r.2.mem ((c.tc : Thread nD τ).loc main_v10) = product (M := 2048) (φ₁ := .f32) (φ₂ := .f32) (m ((c.tc : Thread nD τ).loc main_arg4) : FVec Ideal S2048x1024 .f32) (m ((c.tc : Thread nD τ).loc main_arg5) : FVec Ideal S1024x1024 .f32)
      ∧ r.2.mem ((c.tc : Thread nD τ).loc main_v11) = product (M := 4096) (φ₁ := .f32) (φ₂ := .f32) (m ((c.tc : Thread nD τ).loc main_arg6) : FVec Ideal S4096x1024 .f32) (m ((c.tc : Thread nD τ).loc main_arg7) : FVec Ideal S1024x1024 .f32)
      ∧ r.2.mem ((c.tc : Thread nD τ).loc main_v12) = product (M := 1536) (φ₁ := .f32) (φ₂ := .f32) (m ((c.tc : Thread nD τ).loc main_arg8) : FVec Ideal S1536x1024 .f32) (m ((c.tc : Thread nD τ).loc main_arg9) : FVec Ideal S1024x1024 .f32)
      ∧ r.2.mem ((c.tc : Thread nD τ).loc main_v13) = product (M := 768) (φ₁ := .f32) (φ₂ := .f32) (m ((c.tc : Thread nD τ).loc main_arg10) : FVec Ideal S768x1024 .f32) (m ((c.tc : Thread nD τ).loc main_arg11) : FVec Ideal S1024x1024 .f32)
      ∧ r.2.mem ((c.tc : Thread nD τ).loc main_v14) = product (M := 3072) (φ₁ := .f32) (φ₂ := .f32) (m ((c.tc : Thread nD τ).loc main_arg12) : FVec Ideal S3072x1024 .f32) (m ((c.tc : Thread nD τ).loc main_arg13) : FVec Ideal S1024x1024 .f32)
      ∧ r.2.mem ((c.tc : Thread nD τ).loc main_v15) = product (M := 2560) (φ₁ := .f32) (φ₂ := .f32) (m ((c.tc : Thread nD τ).loc main_arg14) : FVec Ideal S2560x1024 .f32) (m ((c.tc : Thread nD τ).loc main_arg15) : FVec Ideal S1024x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨
      (LastBoundary.at_ref m ρ h c main_v8 (by decide)).trans (Results.result0 m ρ c),
      (LastBoundary.at_ref m ρ h c main_v9 (by decide)).trans (Results.result1 m ρ c),
      (LastBoundary.at_ref m ρ h c main_v10 (by decide)).trans (Results.result2 m ρ c),
      (LastBoundary.at_ref m ρ h c main_v11 (by decide)).trans (Results.result3 m ρ c),
      (LastBoundary.at_ref m ρ h c main_v12 (by decide)).trans (Results.result4 m ρ c),
      (LastBoundary.at_ref m ρ h c main_v13 (by decide)).trans (Results.result5 m ρ c),
      (LastBoundary.at_ref m ρ h c main_v14 (by decide)).trans (Results.result6 m ρ c),
      (LastBoundary.at_ref m ρ h c main_v15 (by decide)).trans (Results.result7 m ρ c),
      (LastBoundary.at_ref m ρ h c main_arg0 (by decide)).trans (W9_main_arg0 m ρ c),
      (LastBoundary.at_ref m ρ h c main_arg1 (by decide)).trans (W9_main_arg1 m ρ c),
      (LastBoundary.at_ref m ρ h c main_arg2 (by decide)).trans (W9_main_arg2 m ρ c),
      (LastBoundary.at_ref m ρ h c main_arg3 (by decide)).trans (W9_main_arg3 m ρ c),
      (LastBoundary.at_ref m ρ h c main_arg4 (by decide)).trans (W9_main_arg4 m ρ c),
      (LastBoundary.at_ref m ρ h c main_arg5 (by decide)).trans (W9_main_arg5 m ρ c),
      (LastBoundary.at_ref m ρ h c main_arg6 (by decide)).trans (W9_main_arg6 m ρ c),
      (LastBoundary.at_ref m ρ h c main_arg7 (by decide)).trans (W9_main_arg7 m ρ c),
      (LastBoundary.at_ref m ρ h c main_arg8 (by decide)).trans (W9_main_arg8 m ρ c),
      (LastBoundary.at_ref m ρ h c main_arg9 (by decide)).trans (W9_main_arg9 m ρ c),
      (LastBoundary.at_ref m ρ h c main_arg10 (by decide)).trans (W9_main_arg10 m ρ c),
      (LastBoundary.at_ref m ρ h c main_arg11 (by decide)).trans (W9_main_arg11 m ρ c),
      (LastBoundary.at_ref m ρ h c main_arg12 (by decide)).trans (W9_main_arg12 m ρ c),
      (LastBoundary.at_ref m ρ h c main_arg13 (by decide)).trans (W9_main_arg13 m ρ c),
      (LastBoundary.at_ref m ρ h c main_arg14 (by decide)).trans (W9_main_arg14 m ρ c),
      (LastBoundary.at_ref m ρ h c main_arg15 (by decide)).trans (W9_main_arg15 m ρ c)⟩)
    (LastBoundary.run m ρ)

end Cert.KernelIdeal.Outcome

end
-- ==== Proof.ReferenceProducts.lean ====
/-
  The reference computes eight products.

  Each of the reference's eight results is one contraction of an M x 1024 argument with a 1024 x 1024 argument along the
  shared axis. Read at an entry (r, s) over the extended reals that contraction is the sum over k of a(r, k) * b(k, s): the
  product of the two arguments, the same function the kernel side is measured against.
-/
import proofs.«135188_j32349693674007_2_alg».proof.Proof.Gen.ReferenceIdeal.Read
import proofs.«135188_j32349693674007_2_alg».proof.Proof.RowsByColumns

noncomputable section

namespace Cert.ReferenceIdeal.Products

open Cert.ReferenceIdeal Cert.ReferenceIdeal.Gen Cert.ReferenceIdeal.Read Cert.RowsByColumns
open Idealize.ShloMosaic Idealize.ShloMosaic.ValueIdx

/-- The reference's result 0 is the product of its two arguments. -/
theorem stage0 (a : (⟨S512x1024, .f32⟩ : BufTy).Contents (Elt Ideal)) (b : (⟨S1024x1024, .f32⟩ : BufTy).Contents (Elt Ideal)) :
    val_main_v0 (F := Ideal) a b = product (M := 512) (φ₁ := .f32) (φ₂ := .f32) a b := by
  funext i
  rw [val_main_v0_apply]
  unfold product
  refine Finset.sum_congr rfl fun k _ => ?_
  have el : lidx_main_v0 i k = ix2 (⟨(i 0).val, (i 0).isLt⟩ : Fin 512) k :=
    funext fun a => Fin.ext (by match a with | ⟨0, _⟩ => rfl | ⟨1, _⟩ => rfl)
  have er : ridx_main_v0 i k = ix2 k (⟨(i 1).val, (i 1).isLt⟩ : Fin 1024) :=
    funext fun a => Fin.ext (by match a with | ⟨0, _⟩ => rfl | ⟨1, _⟩ => rfl)
  rw [el, er]

/-- The reference's result 1 is the product of its two arguments. -/
theorem stage1 (a : (⟨S1024x1024, .f32⟩ : BufTy).Contents (Elt Ideal)) (b : (⟨S1024x1024, .f32⟩ : BufTy).Contents (Elt Ideal)) :
    val_main_v1 (F := Ideal) a b = product (M := 1024) (φ₁ := .f32) (φ₂ := .f32) a b := by
  funext i
  rw [val_main_v1_apply]
  unfold product
  refine Finset.sum_congr rfl fun k _ => ?_
  have el : lidx_main_v1 i k = ix2 (⟨(i 0).val, (i 0).isLt⟩ : Fin 1024) k :=
    funext fun a => Fin.ext (by match a with | ⟨0, _⟩ => rfl | ⟨1, _⟩ => rfl)
  have er : ridx_main_v1 i k = ix2 k (⟨(i 1).val, (i 1).isLt⟩ : Fin 1024) :=
    funext fun a => Fin.ext (by match a with | ⟨0, _⟩ => rfl | ⟨1, _⟩ => rfl)
  rw [el, er]

/-- The reference's result 2 is the product of its two arguments. -/
theorem stage2 (a : (⟨S2048x1024, .f32⟩ : BufTy).Contents (Elt Ideal)) (b : (⟨S1024x1024, .f32⟩ : BufTy).Contents (Elt Ideal)) :
    val_main_v2 (F := Ideal) a b = product (M := 2048) (φ₁ := .f32) (φ₂ := .f32) a b := by
  funext i
  rw [val_main_v2_apply]
  unfold product
  refine Finset.sum_congr rfl fun k _ => ?_
  have el : lidx_main_v2 i k = ix2 (⟨(i 0).val, (i 0).isLt⟩ : Fin 2048) k :=
    funext fun a => Fin.ext (by match a with | ⟨0, _⟩ => rfl | ⟨1, _⟩ => rfl)
  have er : ridx_main_v2 i k = ix2 k (⟨(i 1).val, (i 1).isLt⟩ : Fin 1024) :=
    funext fun a => Fin.ext (by match a with | ⟨0, _⟩ => rfl | ⟨1, _⟩ => rfl)
  rw [el, er]

/-- The reference's result 3 is the product of its two arguments. -/
theorem stage3 (a : (⟨S4096x1024, .f32⟩ : BufTy).Contents (Elt Ideal)) (b : (⟨S1024x1024, .f32⟩ : BufTy).Contents (Elt Ideal)) :
    val_main_v3 (F := Ideal) a b = product (M := 4096) (φ₁ := .f32) (φ₂ := .f32) a b := by
  funext i
  rw [val_main_v3_apply]
  unfold product
  refine Finset.sum_congr rfl fun k _ => ?_
  have el : lidx_main_v3 i k = ix2 (⟨(i 0).val, (i 0).isLt⟩ : Fin 4096) k :=
    funext fun a => Fin.ext (by match a with | ⟨0, _⟩ => rfl | ⟨1, _⟩ => rfl)
  have er : ridx_main_v3 i k = ix2 k (⟨(i 1).val, (i 1).isLt⟩ : Fin 1024) :=
    funext fun a => Fin.ext (by match a with | ⟨0, _⟩ => rfl | ⟨1, _⟩ => rfl)
  rw [el, er]

/-- The reference's result 4 is the product of its two arguments. -/
theorem stage4 (a : (⟨S1536x1024, .f32⟩ : BufTy).Contents (Elt Ideal)) (b : (⟨S1024x1024, .f32⟩ : BufTy).Contents (Elt Ideal)) :
    val_main_v4 (F := Ideal) a b = product (M := 1536) (φ₁ := .f32) (φ₂ := .f32) a b := by
  funext i
  rw [val_main_v4_apply]
  unfold product
  refine Finset.sum_congr rfl fun k _ => ?_
  have el : lidx_main_v4 i k = ix2 (⟨(i 0).val, (i 0).isLt⟩ : Fin 1536) k :=
    funext fun a => Fin.ext (by match a with | ⟨0, _⟩ => rfl | ⟨1, _⟩ => rfl)
  have er : ridx_main_v4 i k = ix2 k (⟨(i 1).val, (i 1).isLt⟩ : Fin 1024) :=
    funext fun a => Fin.ext (by match a with | ⟨0, _⟩ => rfl | ⟨1, _⟩ => rfl)
  rw [el, er]

/-- The reference's result 5 is the product of its two arguments. -/
theorem stage5 (a : (⟨S768x1024, .f32⟩ : BufTy).Contents (Elt Ideal)) (b : (⟨S1024x1024, .f32⟩ : BufTy).Contents (Elt Ideal)) :
    val_main_v5 (F := Ideal) a b = product (M := 768) (φ₁ := .f32) (φ₂ := .f32) a b := by
  funext i
  rw [val_main_v5_apply]
  unfold product
  refine Finset.sum_congr rfl fun k _ => ?_
  have el : lidx_main_v5 i k = ix2 (⟨(i 0).val, (i 0).isLt⟩ : Fin 768) k :=
    funext fun a => Fin.ext (by match a with | ⟨0, _⟩ => rfl | ⟨1, _⟩ => rfl)
  have er : ridx_main_v5 i k = ix2 k (⟨(i 1).val, (i 1).isLt⟩ : Fin 1024) :=
    funext fun a => Fin.ext (by match a with | ⟨0, _⟩ => rfl | ⟨1, _⟩ => rfl)
  rw [el, er]

/-- The reference's result 6 is the product of its two arguments. -/
theorem stage6 (a : (⟨S3072x1024, .f32⟩ : BufTy).Contents (Elt Ideal)) (b : (⟨S1024x1024, .f32⟩ : BufTy).Contents (Elt Ideal)) :
    val_main_v6 (F := Ideal) a b = product (M := 3072) (φ₁ := .f32) (φ₂ := .f32) a b := by
  funext i
  rw [val_main_v6_apply]
  unfold product
  refine Finset.sum_congr rfl fun k _ => ?_
  have el : lidx_main_v6 i k = ix2 (⟨(i 0).val, (i 0).isLt⟩ : Fin 3072) k :=
    funext fun a => Fin.ext (by match a with | ⟨0, _⟩ => rfl | ⟨1, _⟩ => rfl)
  have er : ridx_main_v6 i k = ix2 k (⟨(i 1).val, (i 1).isLt⟩ : Fin 1024) :=
    funext fun a => Fin.ext (by match a with | ⟨0, _⟩ => rfl | ⟨1, _⟩ => rfl)
  rw [el, er]

/-- The reference's result 7 is the product of its two arguments. -/
theorem stage7 (a : (⟨S2560x1024, .f32⟩ : BufTy).Contents (Elt Ideal)) (b : (⟨S1024x1024, .f32⟩ : BufTy).Contents (Elt Ideal)) :
    val_main_v7 (F := Ideal) a b = product (M := 2560) (φ₁ := .f32) (φ₂ := .f32) a b := by
  funext i
  rw [val_main_v7_apply]
  unfold product
  refine Finset.sum_congr rfl fun k _ => ?_
  have el : lidx_main_v7 i k = ix2 (⟨(i 0).val, (i 0).isLt⟩ : Fin 2560) k :=
    funext fun a => Fin.ext (by match a with | ⟨0, _⟩ => rfl | ⟨1, _⟩ => rfl)
  have er : ridx_main_v7 i k = ix2 k (⟨(i 1).val, (i 1).isLt⟩ : Fin 1024) :=
    funext fun a => Fin.ext (by match a with | ⟨0, _⟩ => rfl | ⟨1, _⟩ => rfl)
  rw [el, er]

end Cert.ReferenceIdeal.Products

end
-- ==== Proof.lean ====
/-
  Eight independent matrix products ("grouped matmul"): for p = 0 … 7, result p is argument 2p (M_p x 1024) times
  argument 2p + 1 (1024 x 1024), M = 512, 1024, 2048, 4096, 1536, 768, 3072, 2560.

  The kernel program rounds each right operand to bf16 on the host, then launches one kernel per product; a launch walks
  M_p / 256 grid points, and at each multiplies a 256-row slab of the (rounded) left operand by the whole rounded right
  operand on the matrix unit, from a zero accumulator, writing the 256 x 1024 result back. The reference is eight host
  contractions of the unrounded arguments. Over the extended reals a change of float format is the identity and both a
  matrix-unit product from zero and a host contraction are the plain sum over k of a(r, k) * b(k, s), so both programs
  end with result p equal, entry by entry, to that one sum — the same terms in the same order, so no law of arithmetic
  and no finiteness of the inputs is used. The idealized kernel is the kernel's own text read over the extended reals
  (no rewrite was applied), so that conjunct is trivial; the two kernel frames are the generated ones, and the
  reference's frame is its run with the results dropped.
-/
import proofs.«135188_j32349693674007_2_alg».proof.Defs
import proofs.«135188_j32349693674007_2_alg».proof.Proof.Gen.Kernel
import proofs.«135188_j32349693674007_2_alg».proof.Proof.Gen.Kernel.Skeleton
import proofs.«135188_j32349693674007_2_alg».proof.Proof.Gen.Kernel.Launch
import proofs.«135188_j32349693674007_2_alg».proof.Proof.Gen.Kernel.Points
import proofs.«135188_j32349693674007_2_alg».proof.Proof.Gen.Kernel.Frame
import proofs.«135188_j32349693674007_2_alg».proof.Proof.Gen.KernelIdeal
import proofs.«135188_j32349693674007_2_alg».proof.Proof.Gen.KernelIdeal.Skeleton
import proofs.«135188_j32349693674007_2_alg».proof.Proof.Gen.KernelIdeal.Launch
import proofs.«135188_j32349693674007_2_alg».proof.Proof.Gen.KernelIdeal.Points
import proofs.«135188_j32349693674007_2_alg».proof.Proof.Gen.KernelIdeal.Frame
import proofs.«135188_j32349693674007_2_alg».proof.Proof.Gen.ReferenceIdeal
import proofs.«135188_j32349693674007_2_alg».proof.Proof.Gen.Pre_finite_inputs
import proofs.«135188_j32349693674007_2_alg».proof.Proof.Gen.ReferenceIdeal.Run
import proofs.«135188_j32349693674007_2_alg».proof.Proof.Gen.ReferenceIdeal.Read
import proofs.«135188_j32349693674007_2_alg».proof.Proof.Outcome
import proofs.«135188_j32349693674007_2_alg».proof.Proof.ReferenceProducts
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference runs, and its arguments end unchanged: its run with the eight results dropped. -/
theorem frame_reference : Cert.frame_ReferenceIdeal := fun m ρ _ =>
  (θ_run Cert.ReferenceIdeal.defs _ _).mono (fun _ h c => (h c).2.2.2.2.2.2.2.2) (Cert.ReferenceIdeal.Value.run (F := Ideal) m ρ)

/-- Both programs end with result p at the product of arguments 2p and 2p + 1: the kernel's run, and the reference's
    run with each contraction read as that product of arguments that agree with the kernel's. -/
theorem algebraic : Cert.algebraic_KernelIdeal_ReferenceIdeal := by
  intro m ρ m' ρ' _ hagree
  refine ⟨_, _, _, _, _, _, _, _, Cert.KernelIdeal.Outcome.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15⟩ := hagree c
  obtain ⟨h0, h1, h2, h3, h4, h5, h6, h7, hkept⟩ := h c
  refine ⟨h0.trans ?_, h1.trans ?_, h2.trans ?_, h3.trans ?_, h4.trans ?_, h5.trans ?_, h6.trans ?_, h7.trans ?_, hkept⟩
  · rw [a0, a1]
    exact (Cert.ReferenceIdeal.Read.val_main_v0_eq _ _).trans (Cert.ReferenceIdeal.Products.stage0 _ _)
  · rw [a2, a3]
    exact (Cert.ReferenceIdeal.Read.val_main_v1_eq _ _).trans (Cert.ReferenceIdeal.Products.stage1 _ _)
  · rw [a4, a5]
    exact (Cert.ReferenceIdeal.Read.val_main_v2_eq _ _).trans (Cert.ReferenceIdeal.Products.stage2 _ _)
  · rw [a6, a7]
    exact (Cert.ReferenceIdeal.Read.val_main_v3_eq _ _).trans (Cert.ReferenceIdeal.Products.stage3 _ _)
  · rw [a8, a9]
    exact (Cert.ReferenceIdeal.Read.val_main_v4_eq _ _).trans (Cert.ReferenceIdeal.Products.stage4 _ _)
  · rw [a10, a11]
    exact (Cert.ReferenceIdeal.Read.val_main_v5_eq _ _).trans (Cert.ReferenceIdeal.Products.stage5 _ _)
  · rw [a12, a13]
    exact (Cert.ReferenceIdeal.Read.val_main_v6_eq _ _).trans (Cert.ReferenceIdeal.Products.stage6 _ _)
  · rw [a14, a15]
    exact (Cert.ReferenceIdeal.Read.val_main_v7_eq _ _).trans (Cert.ReferenceIdeal.Products.stage7 _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
